-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S1x512 : Shape := ⟨2, ![1, 512]⟩
abbrev S1 : Shape := ⟨1, ![1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S100000x512 .f32) (main_arg1 : IVec S2x3200000 32) (main_arg2 : FVec F S1x512 .f32) (main_arg3 : FVec F S1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1x512 .f32 := Host.absf main_arg2
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S100000x512 : Shape := ⟨2, ![100000, 512]⟩
abbrev S2x3200000 : Shape := ⟨2, ![2, 3200000]⟩
abbrev S1x512 : Shape := ⟨2, ![1, 512]⟩
abbrev S1 : Shape := ⟨1, ![1]⟩
abbrev S_ : Shape := ⟨0, ![]⟩
abbrev S128x512 : Shape := ⟨2, ![128, 512]⟩
abbrev S512x128 : Shape := ⟨2, ![512, 128]⟩
abbrev S100000x1 : Shape := ⟨2, ![100000, 1]⟩
abbrev S4000x512 : Shape := ⟨2, ![4000, 512]⟩
abbrev S4000x1 : Shape := ⟨2, ![4000, 1]⟩
abbrev S4000x128 : Shape := ⟨2, ![4000, 128]⟩
abbrev S1x3200000 : Shape := ⟨2, ![1, 3200000]⟩
abbrev S3200000 : Shape := ⟨1, ![3200000]⟩
abbrev S100000 : Shape := ⟨1, ![100000]⟩
abbrev S3200000x1 : Shape := ⟨2, ![3200000, 1]⟩
abbrev S1x1 : Shape := ⟨2, ![1, 1]⟩

abbrev nBuf : Space → Nat
  | .hbm => 74
  | .vmem => 5
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S1x512, .f32⟩
  | .hbm, ⟨3, _⟩ => ⟨S1, .f32⟩
  | .hbm, ⟨4, _⟩ => ⟨S_, .f32⟩
  | .hbm, ⟨5, _⟩ => ⟨S128x512, .f32⟩
  | .hbm, ⟨6, _⟩ => ⟨S_, .i32⟩
  | .hbm, ⟨7, _⟩ => ⟨S1, .i32⟩
  | .hbm, ⟨8, _⟩ => ⟨S128x512, .f32⟩
  | .hbm, ⟨9, _⟩ => ⟨S512x128, .f32⟩
  | .hbm, ⟨10, _⟩ => ⟨S100000x1, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .f32⟩
  | .hbm, ⟨16, _⟩ => ⟨S3200000, .f32⟩
  | .hbm, ⟨17, _⟩ => ⟨S_, .f32⟩
  | .hbm, ⟨18, _⟩ => ⟨S100000, .f32⟩
  | .hbm, ⟨19, _⟩ => ⟨S3200000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S3200000, .i32⟩
  | .hbm, ⟨27, _⟩ => ⟨S3200000, .i1⟩
  | .hbm, ⟨28, _⟩ => ⟨S_, .i32⟩
  | .hbm, ⟨29, _⟩ => ⟨S3200000, .i32⟩
  | .hbm, ⟨30, _⟩ => ⟨S3200000, .i32⟩
  | .hbm, ⟨31, _⟩ => ⟨S3200000, .i32⟩
  | .hbm, ⟨32, _⟩ => ⟨S3200000x1, .i32⟩
  | .hbm, ⟨33, _⟩ => ⟨S3200000, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S3200000, .f32⟩
  | .hbm, ⟨43, _⟩ => ⟨S3200000, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x1, .f32⟩
  | .hbm, ⟨53, _⟩ => ⟨S3200000x1, .f32⟩
  | .hbm, ⟨54, _⟩ => ⟨S3200000x1, .f32⟩
  | .hbm, ⟨55, _⟩ => ⟨S_, .f32⟩
  | .hbm, ⟨56, _⟩ => ⟨S100000x1, .f32⟩
  | .hbm, ⟨57, _⟩ => ⟨S3200000x1, .i32⟩
  | .hbm, ⟨58, _⟩ => ⟨S100000x1, .f32⟩
  | .hbm, ⟨59, _⟩ => ⟨S100000, .f32⟩
  | .hbm, ⟨60, _⟩ => ⟨S100000x1, .f32⟩
  | .hbm, ⟨61, _⟩ => ⟨S100000x1, .f32⟩
  | .hbm, ⟨62, _⟩ => ⟨S100000x1, .f32⟩
  | .hbm, ⟨63, _⟩ => ⟨S1x1, .f32⟩
  | .hbm, ⟨64, _⟩ => ⟨S100000x1, .f32⟩
  | .hbm, ⟨65, _⟩ => ⟨S100000x1, .f32⟩
  | .hbm, ⟨66, _⟩ => ⟨S100000x1, .f32⟩
  | .hbm, ⟨67, _⟩ => ⟨S100000x1, .f32⟩
  | .hbm, ⟨68, _⟩ => ⟨S_, .f32⟩
  | .hbm, ⟨69, _⟩ => ⟨S100000x1, .f32⟩
  | .hbm, ⟨70, _⟩ => ⟨S100000x1, .f32⟩
  | .hbm, ⟨71, _⟩ => ⟨S_, .f32⟩
  | .hbm, ⟨72, _⟩ => ⟨S100000x1, .f32⟩
  | .hbm, ⟨73, _⟩ => ⟨S100000x1, .f32⟩
  | .local _ .vmem, ⟨0, _⟩ => ⟨S4000x512, .f32⟩
  | .local _ .vmem, ⟨1, _⟩ => ⟨S4000x512, .f32⟩
  | .local _ .vmem, ⟨2, _⟩ => ⟨S512x128, .f32⟩
  | .local _ .vmem, ⟨3, _⟩ => ⟨S4000x1, .f32⟩
  | .local _ .vmem, ⟨4, _⟩ => ⟨S4000x1, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_7 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S128x512 : S_.BroadcastsInDim S128x512 (![] : Fin 0 → Fin S128x512.rank)
  bcast_S_S1 : S_.BroadcastsInDim S1 (![] : Fin 0 → Fin S1.rank)
  transposes_S128x512_S512x128_1_0 : S128x512.Transposes [1, 0] S512x128
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S4000x128_o0_0_S4000x1 : S4000x128.Slices ![0, 0] S4000x1
  inb_S4000x1_S4000x1_0_0 : ∀ a, (![0, 0] : Fin 2 → Nat) a + S4000x1.size a ≤ S4000x1.size a
  h_S4000x1 : 0 < S4000x1.numel
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S100000x1 : S_.BroadcastsInDim S100000x1 (![] : Fin 0 → Fin S100000x1.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S128x512_S1_S1x512_01_n_0_0_wf : ScatterDims.WF S128x512 S1 S1x512 [0, 1] [] [0] 0
  dot_S4000x512_S512x128_S4000x128_1_0_0_1_n_n_wf : DotDims.WF S4000x512 S512x128 S4000x128 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)

variable [Facts₀]

def scatter_S128x512_S1_S1x512_01_n_0_0 : ScatterDims S128x512 S1 S1x512 where
  updateWindowDims := [0, 1]
  insertedWindowDims := []
  scatterDimsToOperandDims := [0]
  indexVectorDim := 0
  wf := scatter_S128x512_S1_S1x512_01_n_0_0_wf
def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S1x512 : Shape := ⟨2, ![1, 512]⟩
abbrev S1 : Shape := ⟨1, ![1]⟩
abbrev S512x1 : Shape := ⟨2, ![512, 1]⟩
abbrev S100000x1 : Shape := ⟨2, ![100000, 1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S1x1 : Shape := ⟨2, ![1, 1]⟩

abbrev nBuf : Space → Nat
  | .hbm => 72
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S1x512, .f32⟩
  | .hbm, ⟨3, _⟩ => ⟨S1, .f32⟩
  | .hbm, ⟨4, _⟩ => ⟨S512x1, .f32⟩
  | .hbm, ⟨5, _⟩ => ⟨S100000x1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x1, .f32⟩
  | .hbm, ⟨55, _⟩ => ⟨S3300000x1, .f32⟩
  | .hbm, ⟨56, _⟩ => ⟨S3300000x1, .f32⟩
  | .hbm, ⟨57, _⟩ => ⟨S_, .f32⟩
  | .hbm, ⟨58, _⟩ => ⟨S100000x1, .f32⟩
  | .hbm, ⟨59, _⟩ => ⟨S3300000x1, .i32⟩
  | .hbm, ⟨60, _⟩ => ⟨S100000x1, .f32⟩
  | .hbm, ⟨61, _⟩ => ⟨S1x1, .f32⟩
  | .hbm, ⟨62, _⟩ => ⟨S100000x1, .f32⟩
  | .hbm, ⟨63, _⟩ => ⟨S100000x1, .f32⟩
  | .hbm, ⟨64, _⟩ => ⟨S100000x1, .f32⟩
  | .hbm, ⟨65, _⟩ => ⟨S100000x1, .f32⟩
  | .hbm, ⟨66, _⟩ => ⟨S_, .f32⟩
  | .hbm, ⟨67, _⟩ => ⟨S100000x1, .f32⟩
  | .hbm, ⟨68, _⟩ => ⟨S100000x1, .f32⟩
  | .hbm, ⟨69, _⟩ => ⟨S_, .f32⟩
  | .hbm, ⟨70, _⟩ => ⟨S100000x1, .f32⟩
  | .hbm, ⟨71, _⟩ => ⟨S100000x1, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  transposes_S1x512_S512x1_1_0 : S1x512.Transposes [1, 0] S512x1
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x512_S512x1_S100000x1_1_0_0_1_n_n_wf : DotDims.WF S100000x512 S512x1 S100000x1 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def dot_S100000x512_S512x1_S100000x1_1_0_0_1_n_n : DotDims S100000x512 S512x1 S100000x1 where
  lhsContracting := [1]
  rhsContracting := [0]
  lhsNonContracting := [0]
  rhsNonContracting := [1]
  lhsBatch := []
  rhsBatch := []
  wf := dot_S100000x512_S512x1_S100000x1_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.LibScatterColumn.lean ====
/-
  A COLUMN SCATTER-ADD IS THE VECTOR SCATTER-ADD VIEWED AS A COLUMN (a general lemma, over the extended reals).

  An accumulating scatter with one scalar start index per update can be written in two ways.

  * The VECTOR form: the operand is a vector of extent N, the updates a vector of extent E, the scatter indices an
    [E, 1] array whose second axis is the index vector's. There is no window axis; the operand's only axis is an
    inserted window axis and is the axis the start index addresses. Update e lands at operand position idx[e, 0].

  * The COLUMN form: the operand is an [N, 1] column, the updates an [E, 1] column, the scatter indices the same
    [E, 1] array. The updates' second axis is a window axis of extent 1 that goes to the operand's second axis; the
    operand's first axis is inserted and is the one the start index addresses. Update (e, 0) lands at operand position
    (idx[e, 0], 0 + 0).

  In both forms the start index is read signed and is not clamped, and an update whose position falls outside the
  operand is dropped. At the ideal instance the result at a position is the operand there plus the sum of the updates
  that land there. So when the operands agree (x n = x' (n, 0)) and the updates agree (u e = u' (e, 0)), the two results
  agree: result n of the vector form is result (n, 0) of the column form.

  The proof: an update index j lands on position i exactly when start + window coordinate equals i's coordinate on
  every axis ('resultIdx?_eq_some_iff': the in-range test is then implied by i's own bounds). For the two sets of
  dimension numbers the starts and window coordinates are computed axis by axis ('vec_start' … 'col_window1'); on the
  column's second axis the condition reads 0 + (j 1) = 0, which holds because that axis has extent 1. Hence both
  "lands on n" conditions are the same equation idx[j 0, 0] = n ('vec_hit', 'col_hit'), and the bijection
  e ↦ (e, 0) between the two update index sets ('colEquiv') carries one sum to the other. All extents stay symbolic.
-/
import Idealize.ShloMosaic.Lib.ValueIdx
import Idealize.ShloMosaic.PureOps.Ideal

open scoped BigOperators
open Idealize.ShloMosaic Idealize.ShloMosaic.ValueIdx

namespace Cert.ScatterColumn

/-- An update index j lands on operand index i exactly when, on every operand axis, the (signed, unclamped) start
    plus the window coordinate is i's coordinate. The in-range condition of the landing position follows from i's
    own bounds, so it does not appear on the right. Holds for any scatter dimension numbers. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hi a
      have h1 := h a
      rw [← hi]
      show _ = (((d.start j idx a + (d.window j a : ℤ)).toNat : ℕ) : ℤ)
      omega
    · intro hi
      funext a
      apply Fin.ext
      have h1 := hi a
      have h2 := h a
      show (d.start j idx a + (d.window j a : ℤ)).toNat = (i a).val
      omega
  · rename_i h
    constructor
    · intro hi; cases hi
    · intro hi
      exfalso
      apply h
      intro a
      have h1 := hi a
      have h2 := (i a).isLt
      omega

/-- The VECTOR form's dimension numbers: operand [N], scatter indices [E, 1] (index vector on axis 1), updates [E];
    no update window axis, operand axis 0 inserted and addressed by the one start-index component. -/
abbrev vecDims (N E : ℕ) (w1 : ScatterDims.WF (⟨1, ![N]⟩ : Shape) ⟨2, ![E, 1]⟩ ⟨1, ![E]⟩ [] [0] [0] 1) :
    ScatterDims (⟨1, ![N]⟩ : Shape) ⟨2, ![E, 1]⟩ ⟨1, ![E]⟩ := ⟨[], [0], [0], 1, w1⟩

/-- The COLUMN form's dimension numbers: operand [N, 1], scatter indices [E, 1] (index vector on axis 1), updates
    [E, 1]; update axis 1 is a window axis going to operand axis 1, operand axis 0 inserted and addressed by the one
    start-index component. -/
abbrev colDims (N E : ℕ) (w2 : ScatterDims.WF (⟨2, ![N, 1]⟩ : Shape) ⟨2, ![E, 1]⟩ ⟨2, ![E, 1]⟩ [1] [0] [0] 1) :
    ScatterDims (⟨2, ![N, 1]⟩ : Shape) ⟨2, ![E, 1]⟩ ⟨2, ![E, 1]⟩ := ⟨[1], [0], [0], 1, w2⟩

/-- Vector form: the start on the operand's axis for update e is the scatter index idx[e, 0], read signed. -/
theorem vec_start {N E : ℕ} (w1 : ScatterDims.WF (⟨1, ![N]⟩ : Shape) ⟨2, ![E, 1]⟩ ⟨1, ![E]⟩ [] [0] [0] 1)
    (j : (⟨1, ![E]⟩ : Shape).Idx) (idx : IVec ⟨2, ![E, 1]⟩ 32) :
    (vecDims N E w1).start j idx 0 = (idx (ix2 (j 0) (0 : Fin 1))).toInt := by
  have hmem : (0 : Fin 1) ∈ (vecDims N E w1).scatterDimsToOperandDims := List.mem_singleton.mpr rfl
  unfold ScatterDims.start
  rw [dif_pos hmem]
  have hsi : (vecDims N E w1).siIdx j ⟨List.idxOf (0 : Fin 1) (vecDims N E w1).scatterDimsToOperandDims,
      List.idxOf_lt_length_iff.2 hmem⟩ = ix2 (j 0) (0 : Fin 1) := by
    funext b; refine Fin.ext ?_
    match b with
    | ⟨0, _⟩ => rfl
    | ⟨1, _⟩ => rfl
  rw [hsi]
  rfl

/-- Vector form: the operand's axis is an inserted window axis, so the window coordinate on it is 0. -/
theorem vec_window {N E : ℕ} (w1 : ScatterDims.WF (⟨1, ![N]⟩ : Shape) ⟨2, ![E, 1]⟩ ⟨1, ![E]⟩ [] [0] [0] 1)
    (j : (⟨1, ![E]⟩ : Shape).Idx) : (vecDims N E w1).window j 0 = 0 := by
  rfl

/-- Column form: the start on operand axis 0 for update (e, k) is the scatter index idx[e, 0], read signed. -/
theorem col_start0 {N E : ℕ}
    (w2 : ScatterDims.WF (⟨2, ![N, 1]⟩ : Shape) ⟨2, ![E, 1]⟩ ⟨2, ![E, 1]⟩ [1] [0] [0] 1)
    (j : (⟨2, ![E, 1]⟩ : Shape).Idx) (idx : IVec ⟨2, ![E, 1]⟩ 32) :
    (colDims N E w2).start j idx 0 = (idx (ix2 (j 0) (0 : Fin 1))).toInt := by
  have hmem : (0 : Fin 2) ∈ (colDims N E w2).scatterDimsToOperandDims := List.mem_singleton.mpr rfl
  unfold ScatterDims.start
  rw [dif_pos hmem]
  have hsi : (colDims N E w2).siIdx j ⟨List.idxOf (0 : Fin 2) (colDims N E w2).scatterDimsToOperandDims,
      List.idxOf_lt_length_iff.2 hmem⟩ = ix2 (j 0) (0 : Fin 1) := by
    funext b; refine Fin.ext ?_
    match b with
    | ⟨0, _⟩ => rfl
    | ⟨1, _⟩ => rfl
  rw [hsi]
  rfl

/-- Column form: operand axis 1 is not addressed by the start index, so the start on it is 0. -/
theorem col_start1 {N E : ℕ}
    (w2 : ScatterDims.WF (⟨2, ![N, 1]⟩ : Shape) ⟨2, ![E, 1]⟩ ⟨2, ![E, 1]⟩ [1] [0] [0] 1)
    (j : (⟨2, ![E, 1]⟩ : Shape).Idx) (idx : IVec ⟨2, ![E, 1]⟩ 32) :
    (colDims N E w2).start j idx 1 = 0 := by
  rfl

/-- Column form: operand axis 0 is an inserted window axis, so the window coordinate on it is 0. -/
theorem col_window0 {N E : ℕ}
    (w2 : ScatterDims.WF (⟨2, ![N, 1]⟩ : Shape) ⟨2, ![E, 1]⟩ ⟨2, ![E, 1]⟩ [1] [0] [0] 1)
    (j : (⟨2, ![E, 1]⟩ : Shape).Idx) : (colDims N E w2).window j 0 = 0 := by
  rfl

/-- Column form: the window coordinate on operand axis 1 is the update index's coordinate on its window axis 1. -/
theorem col_window1 {N E : ℕ}
    (w2 : ScatterDims.WF (⟨2, ![N, 1]⟩ : Shape) ⟨2, ![E, 1]⟩ ⟨2, ![E, 1]⟩ [1] [0] [0] 1)
    (j : (⟨2, ![E, 1]⟩ : Shape).Idx) : (colDims N E w2).window j 1 = (j 1).val := by
  rfl

/-- Vector form: update e lands on position n exactly when idx[e, 0], read signed, is n. -/
theorem vec_hit {N E : ℕ} (w1 : ScatterDims.WF (⟨1, ![N]⟩ : Shape) ⟨2, ![E, 1]⟩ ⟨1, ![E]⟩ [] [0] [0] 1)
    (j : (⟨1, ![E]⟩ : Shape).Idx) (idx : IVec ⟨2, ![E, 1]⟩ 32) (n : Fin N) :
    (vecDims N E w1).resultIdx? j idx = some (ix1 n) ↔ (idx (ix2 (j 0) (0 : Fin 1))).toInt = (n.val : ℤ) := by
  rw [resultIdx?_eq_some_iff]
  constructor
  · intro h
    have h0 := h 0
    rw [vec_start, vec_window] at h0
    simp only [Nat.cast_zero, add_zero] at h0
    exact h0
  · intro h a
    obtain rfl : a = 0 := Subsingleton.elim _ _
    rw [vec_start, vec_window]
    simp only [Nat.cast_zero, add_zero]
    exact h

/-- Column form: update (e, k) lands on position (n, 0) exactly when idx[e, 0], read signed, is n: on the second
    axis the condition is 0 + k = 0, true because that axis has extent 1. -/
theorem col_hit {N E : ℕ}
    (w2 : ScatterDims.WF (⟨2, ![N, 1]⟩ : Shape) ⟨2, ![E, 1]⟩ ⟨2, ![E, 1]⟩ [1] [0] [0] 1)
    (j : (⟨2, ![E, 1]⟩ : Shape).Idx) (idx : IVec ⟨2, ![E, 1]⟩ 32) (n : Fin N) :
    (colDims N E w2).resultIdx? j idx = some (ix2 n (0 : Fin 1)) ↔
      (idx (ix2 (j 0) (0 : Fin 1))).toInt = (n.val : ℤ) := by
  rw [resultIdx?_eq_some_iff]
  constructor
  · intro h
    have h0 := h 0
    rw [col_start0, col_window0] at h0
    simp only [Nat.cast_zero, add_zero] at h0
    exact h0
  · intro h a
    match a with
    | ⟨0, _⟩ =>
      show (colDims N E w2).start j idx 0 + (((colDims N E w2).window j 0 : ℕ) : ℤ) = _
      rw [col_start0, col_window0]
      simp only [Nat.cast_zero, add_zero]
      exact h
    | ⟨1, _⟩ =>
      show (colDims N E w2).start j idx 1 + (((colDims N E w2).window j 1 : ℕ) : ℤ) = _
      rw [col_start1, col_window1]
      have := idx2_lt1 j
      show (0 : ℤ) + (((j 1).val : ℕ) : ℤ) = ((0 : ℕ) : ℤ)
      omega

/-- The update index sets of the two forms correspond by e ↦ (e, 0): the column's second axis has extent 1. -/
def colEquiv (E : ℕ) : (⟨1, ![E]⟩ : Shape).Idx ≃ (⟨2, ![E, 1]⟩ : Shape).Idx where
  toFun j := ix2 (j 0) (0 : Fin 1)
  invFun j := ix1 (j 0)
  left_inv j := (eq_ix1 j).symm
  right_inv j := by
    have h1 : (j 1) = (0 : Fin 1) := Fin.ext (by have := idx2_lt1 j; show (j 1).val = 0; omega)
    have h2 : j = ix2 (j 0) (0 : Fin 1) := by
      funext a
      match a with
      | ⟨0, _⟩ => rfl
      | ⟨1, _⟩ => exact h1
    exact h2.symm

/-- A COLUMN SCATTER-ADD IS THE VECTOR SCATTER-ADD VIEWED AS A COLUMN. With the same [E, 1] scatter indices, operands
    that agree (x n = x' (n, 0)) and updates that agree (u e = u' (e, 0)), the accumulating scatter of the vector
    updates into the vector operand, read at n, equals the accumulating scatter of the column updates (window axis of
    extent 1) into the column operand, read at (n, 0). Extents N and E are arbitrary; the well-formedness proofs of
    the two sets of dimension numbers are arbitrary. -/
theorem scatterAdd_column {N E : ℕ}
    (w1 : ScatterDims.WF (⟨1, ![N]⟩ : Shape) ⟨2, ![E, 1]⟩ ⟨1, ![E]⟩ [] [0] [0] 1)
    (w2 : ScatterDims.WF (⟨2, ![N, 1]⟩ : Shape) ⟨2, ![E, 1]⟩ ⟨2, ![E, 1]⟩ [1] [0] [0] 1)
    (x : (⟨1, ![N]⟩ : Shape).Idx → EReal) (x' : (⟨2, ![N, 1]⟩ : Shape).Idx → EReal)
    (u : (⟨1, ![E]⟩ : Shape).Idx → EReal) (u' : (⟨2, ![E, 1]⟩ : Shape).Idx → EReal)
    (idx : IVec ⟨2, ![E, 1]⟩ 32)
    (hx : ∀ n : Fin N, x (ix1 n) = x' (ix2 n (0 : Fin 1)))
    (hu : ∀ e : Fin E, u (ix1 e) = u' (ix2 e (0 : Fin 1))) (n : Fin N) :
    Ideal.hostScatterAdd (⟨[], [0], [0], 1, w1⟩ : ScatterDims (⟨1, ![N]⟩ : Shape) ⟨2, ![E, 1]⟩ ⟨1, ![E]⟩) x idx u (ix1 n)
      = Ideal.hostScatterAdd (⟨[1], [0], [0], 1, w2⟩ : ScatterDims (⟨2, ![N, 1]⟩ : Shape) ⟨2, ![E, 1]⟩ ⟨2, ![E, 1]⟩)
          x' idx u' (ix2 n (0 : Fin 1)) := by
  show x (ix1 n) + ∑ j ∈ Finset.univ.filter (fun j => (vecDims N E w1).resultIdx? j idx = some (ix1 n)), u j
    = x' (ix2 n (0 : Fin 1)) +
      ∑ j ∈ Finset.univ.filter (fun j => (colDims N E w2).resultIdx? j idx = some (ix2 n (0 : Fin 1))), u' j
  rw [hx n]
  congr 1
  refine Finset.sum_equiv (colEquiv E) ?_ ?_
  · intro j
    rw [Finset.mem_filter, Finset.mem_filter, vec_hit, col_hit]
    simp only [Finset.mem_univ, true_and]
    rfl
  · intro j _
    rw [eq_ix1 j]
    exact hu (j 0)

/-- The column lemma in the host operation's own spelling, over arbitrary extents: the vector scatter-add read at `n`
    is the column scatter-add read at `(n, 0)`. -/
theorem host_scatter_column {N E : ℕ}
    (w1 : ScatterDims.WF (⟨1, ![N]⟩ : Shape) ⟨2, ![E, 1]⟩ ⟨1, ![E]⟩ [] [0] [0] 1)
    (w2 : ScatterDims.WF (⟨2, ![N, 1]⟩ : Shape) ⟨2, ![E, 1]⟩ ⟨2, ![E, 1]⟩ [1] [0] [0] 1)
    (x : FVec Ideal ⟨1, ![N]⟩ .f32) (x' : FVec Ideal ⟨2, ![N, 1]⟩ .f32)
    (u : FVec Ideal ⟨1, ![E]⟩ .f32) (u' : FVec Ideal ⟨2, ![E, 1]⟩ .f32)
    (idx idx' : IVec ⟨2, ![E, 1]⟩ 32) (hidx : idx = idx')
    (hx : ∀ n : Fin N, x (ix1 n) = x' (ix2 n (0 : Fin 1))) (hu : ∀ e : Fin E, u (ix1 e) = u' (ix2 e (0 : Fin 1))) (n : Fin N) :
    Host.scatterAdd (F := Ideal) (⟨[], [0], [0], 1, w1⟩ : ScatterDims (⟨1, ![N]⟩ : Shape) ⟨2, ![E, 1]⟩ ⟨1, ![E]⟩) x idx u (ix1 n)
      = Host.scatterAdd (F := Ideal) (⟨[1], [0], [0], 1, w2⟩ : ScatterDims (⟨2, ![N, 1]⟩ : Shape) ⟨2, ![E, 1]⟩ ⟨2, ![E, 1]⟩) x' idx' u' (ix2 n (0 : Fin 1)) := by
  subst hidx
  exact scatterAdd_column w1 w2 x x' u u' idx hx hu n

end Cert.ScatterColumn
-- ==== Proof.LibRowSet.lean ====
/-
  WRITING ONE ROW INTO A ZERO-PADDED MATRIX, read back (a general lemma; arbitrary element type and extents).

  A scatter whose body returns the update, with ONE start index (a single word), whose update is a [1, K] array written
  as a window over both axes of an [A, K] operand, the start index addressing the operand's first axis: update (0, k)
  lands at (start + 0, 0 + k). With the start word 0 the operand's row 0 is replaced by the update's row. The host's
  definition applies the updates one after the other in row-major order; since each operand position (0, k) is hit by
  exactly one update index, what is read there afterwards is that update.

  'foldl_read': a left fold of steps over a list, read at a position i, when the steps that touch i are exactly those
  of one list entry j0, which sets it to val j0: the fold reads val j0.
  'scatter_set_apply': the host's scatter with the body "return the update" read at a position hit by exactly one
  update index.
  'rowSet_apply': the case above.
-/
import Idealize.ShloMosaic.Lib.ValueIdx
import proofs.«161635_j58248346468474_2_alg».proof.Proof.LibScatterColumn

open Idealize.ShloMosaic Idealize.ShloMosaic.ValueIdx

namespace Cert.RowSet

/-- A left fold of steps, read at i: if the entries n with P n set position i to val n, the others leave it alone, and
    j0 is the only entry with P, then after a list containing j0 the fold reads val j0 at i. -/
theorem foldl_read {ι A I : Type} (step : (I → A) → ι → (I → A)) (i : I) (P : ι → Prop) (val : ι → A)
    (h1 : ∀ r n, P n → step r n i = val n) (h2 : ∀ r n, ¬ P n → step r n i = r i)
    (j0 : ι) (hj0 : P j0) (hu : ∀ n, P n → n = j0) :
    ∀ (l : List ι) (x : I → A), j0 ∈ l → l.foldl step x i = val j0 := by
  have keep : ∀ (l : List ι) (x : I → A), j0 ∉ l → l.foldl step x i = x i := by
    intro l
    induction l with
    | nil => intro x _; rfl
    | cons n t ih =>
      intro x hn
      rw [List.foldl_cons, ih (step x n) (fun h => hn (List.mem_cons_of_mem _ h))]
      exact h2 x n (fun hP => hn (by rw [hu n hP]; exact List.mem_cons_self))
  intro l
  induction l with
  | nil => intro x h; cases h
  | cons n t ih =>
    intro x hmem
    rw [List.foldl_cons]
    by_cases ht : j0 ∈ t
    · exact ih (step x n) ht
    · have hn : n = j0 := by
        rcases List.mem_cons.mp hmem with h | h
        · exact h.symm
        · exact absurd h ht
      rw [keep t (step x n) ht, hn]
      exact h1 x j0 hj0

/-- The host's scatter whose body returns the update, read at a position on which exactly one update index lands: that
    update. -/
theorem scatter_set_apply {s si u : Shape} {α : Type} {w : ℕ} (d : ScatterDims s si u) (x : s.Idx → α)
    (idx : IVec si w) (upd : u.Idx → α) (i : s.Idx) (j0 : u.Idx)
    (h0 : d.resultIdx? j0 idx = some i) (hu : ∀ j, d.resultIdx? j idx = some i → j = j0) :
    Host.scatter d (fun _ b => b) x idx upd i = upd j0 := by
  unfold Host.scatter
  have hval : upd (u.rowMajor.symm (u.rowMajor j0)) = upd j0 := by rw [Equiv.symm_apply_apply]
  rw [← hval]
  refine foldl_read _ i (fun n => d.resultIdx? (u.rowMajor.symm n) idx = some i) (fun n => upd (u.rowMajor.symm n))
    ?_ ?_ (u.rowMajor j0) ?_ ?_ _ x (List.mem_finRange _)
  · intro r n hP
    dsimp only
    rw [hP]
    exact if_pos rfl
  · intro r n hP
    dsimp only
    generalize d.resultIdx? (u.rowMajor.symm n) idx = o at hP ⊢
    cases o with
    | none => rfl
    | some i' =>
      have e : i ≠ i' := fun e => hP (by rw [e])
      exact if_neg e
  · show d.resultIdx? (u.rowMajor.symm (u.rowMajor j0)) idx = some i
    rw [Equiv.symm_apply_apply]; exact h0
  · intro n hP
    have := hu _ hP
    rw [← this, Equiv.apply_symm_apply]

/-- One [1, K] row written at start row 0 into an [A, K] operand: position (0, k) afterwards holds the update's
    (0, k). -/
theorem rowSet_apply {α : Type} {A K : ℕ} (hA : 0 < A)
    (wf : ScatterDims.WF (⟨2, ![A, K]⟩ : Shape) ⟨1, ![1]⟩ ⟨2, ![1, K]⟩ [0, 1] [] [0] 0)
    (x : (⟨2, ![A, K]⟩ : Shape).Idx → α) (idx : IVec ⟨1, ![1]⟩ 32) (hidx : ∀ k, idx k = 0#32)
    (upd : (⟨2, ![1, K]⟩ : Shape).Idx → α) (k : Fin K) :
    Host.scatter (⟨[0, 1], [], [0], 0, wf⟩ : ScatterDims (⟨2, ![A, K]⟩ : Shape) ⟨1, ![1]⟩ ⟨2, ![1, K]⟩) (fun _ b => b) x idx upd
        (ix2 (⟨0, hA⟩ : Fin A) k) = upd (ix2 (0 : Fin 1) k) := by
  have hs0 : ∀ j : (⟨2, ![1, K]⟩ : Shape).Idx,
      (⟨[0, 1], [], [0], 0, wf⟩ : ScatterDims (⟨2, ![A, K]⟩ : Shape) ⟨1, ![1]⟩ ⟨2, ![1, K]⟩).start j idx 0 = 0 := by
    intro j
    unfold ScatterDims.start
    rw [dif_pos (show (0 : Fin 2) ∈ [(0 : Fin 2)] from List.mem_singleton.mpr rfl), hidx]
    rfl
  have hs1 : ∀ j : (⟨2, ![1, K]⟩ : Shape).Idx,
      (⟨[0, 1], [], [0], 0, wf⟩ : ScatterDims (⟨2, ![A, K]⟩ : Shape) ⟨1, ![1]⟩ ⟨2, ![1, K]⟩).start j idx 1 = 0 := by
    intro j; rfl
  have hw0 : ∀ j : (⟨2, ![1, K]⟩ : Shape).Idx,
      (⟨[0, 1], [], [0], 0, wf⟩ : ScatterDims (⟨2, ![A, K]⟩ : Shape) ⟨1, ![1]⟩ ⟨2, ![1, K]⟩).window j 0 = (j 0).val := by
    intro j; rfl
  have hw1 : ∀ j : (⟨2, ![1, K]⟩ : Shape).Idx,
      (⟨[0, 1], [], [0], 0, wf⟩ : ScatterDims (⟨2, ![A, K]⟩ : Shape) ⟨1, ![1]⟩ ⟨2, ![1, K]⟩).window j 1 = (j 1).val := by
    intro j; rfl
  refine scatter_set_apply _ x idx upd _ (ix2 (0 : Fin 1) k) ?_ ?_
  · rw [ScatterColumn.resultIdx?_eq_some_iff]
    intro a
    match a with
    | ⟨0, _⟩ =>
      show (⟨[0, 1], [], [0], 0, wf⟩ : ScatterDims (⟨2, ![A, K]⟩ : Shape) ⟨1, ![1]⟩ ⟨2, ![1, K]⟩).start _ idx 0
        + (((⟨[0, 1], [], [0], 0, wf⟩ : ScatterDims (⟨2, ![A, K]⟩ : Shape) ⟨1, ![1]⟩ ⟨2, ![1, K]⟩).window _ 0 : ℕ) : ℤ) = _
      rw [hs0, hw0]; rfl
    | ⟨1, _⟩ =>
      show (⟨[0, 1], [], [0], 0, wf⟩ : ScatterDims (⟨2, ![A, K]⟩ : Shape) ⟨1, ![1]⟩ ⟨2, ![1, K]⟩).start _ idx 1
        + (((⟨[0, 1], [], [0], 0, wf⟩ : ScatterDims (⟨2, ![A, K]⟩ : Shape) ⟨1, ![1]⟩ ⟨2, ![1, K]⟩).window _ 1 : ℕ) : ℤ) = _
      rw [hs1, hw1]
      show (0 : ℤ) + ((k.val : ℕ) : ℤ) = ((k.val : ℕ) : ℤ)
      omega
  · intro j hj
    rw [ScatterColumn.resultIdx?_eq_some_iff] at hj
    have h1 := hj 1
    rw [hs1, hw1] at h1
    have h1' : (0 : ℤ) + (((j 1).val : ℕ) : ℤ) = ((k.val : ℕ) : ℤ) := h1
    have hj0 := idx2_lt0 j
    rw [eq_ix2 j]
    congr 1
    · exact Fin.ext (by show (j 0).val = 0; omega)
    · exact Fin.ext (by show (j 1).val = k.val; omega)

end Cert.RowSet
-- ==== Proof.KernelValue.lean ====
/-
  THE KERNEL'S PROJECTION: what the launched region leaves in its output array (at the extended reals).

  The region runs over 25 points. Point t loads rows 4000·t … 4000·t + 3999 of the [100000, 512] feature matrix and the
  whole [512, 128] padded weight matrix, multiplies them into a zero accumulator and stores column 0 of the product as
  rows 4000·t … of the [100000, 1] output. A change of float format is the identity here, so entry (n, 0) of the
  output is the sum over k of x[n, k] · wpad[k, 0] ('proj', 'final').

  The padded weight matrix is computed before the region: a [128, 512] array of zeros whose row 0 is overwritten by the
  [1, 512] weight row, transposed. Its entry (k, 0) is therefore W[0, k] ('wt_apply'), and the output's entry (n, 0)
  is the sum over k of x[n, k] · W[0, k] ('proj_apply').
-/
import proofs.«161635_j58248346468474_2_alg».proof.Proof.Gen.KernelIdeal.Frame
import proofs.«161635_j58248346468474_2_alg».proof.Proof.LibRowSet
import Idealize.ShloMosaic.Lib.Pipeline.Value
import Idealize.ShloMosaic.Lib.ValueIdx
import Idealize.ShloMosaic.Lib.StableHlo.Run
import Idealize.ShloMosaic.Lib.Tactic
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The feature matrix, the weight row and the padded weight matrix as the region finds them, as arrays of extended
    reals. -/
abbrev xin (c : Dev nD) : S100000x512.Idx → EReal := V m c main_arg0
abbrev wpad (c : Dev nD) : S512x128.Idx → EReal := V m c main_v3
abbrev a0 (c : Dev nD) : S100000x512.Idx → EReal := m ((c : Thread nD τ).loc main_arg0)
abbrev a2 (c : Dev nD) : S1x512.Idx → EReal := m ((c : Thread nD τ).loc main_arg2)

/-! ## The body's arithmetic at one row -/

theorem lhs0 (i : S4000x128.Idx) (q : dot_S4000x512_S512x128_S4000x128_1_0_0_1_n_n.contr.Idx) : (dot_S4000x512_S512x128_S4000x128_1_0_0_1_n_n.lhsIdx i q 0).val = (i 0).val := by
  unfold DotDims.lhsIdx
  rw [dif_neg (show ¬(0 : Fin S4000x512.rank) ∈ dot_S4000x512_S512x128_S4000x128_1_0_0_1_n_n.lhsBatch by decide), dif_pos (show (0 : Fin S4000x512.rank) ∈ dot_S4000x512_S512x128_S4000x128_1_0_0_1_n_n.lhsNonContracting by decide)]
  rfl
theorem lhs1 (i : S4000x128.Idx) (q : dot_S4000x512_S512x128_S4000x128_1_0_0_1_n_n.contr.Idx) : (dot_S4000x512_S512x128_S4000x128_1_0_0_1_n_n.lhsIdx i q 1).val = (q ⟨0, by decide⟩).val := by
  unfold DotDims.lhsIdx
  rw [dif_neg (show ¬(1 : Fin S4000x512.rank) ∈ dot_S4000x512_S512x128_S4000x128_1_0_0_1_n_n.lhsBatch by decide), dif_neg (show ¬(1 : Fin S4000x512.rank) ∈ dot_S4000x512_S512x128_S4000x128_1_0_0_1_n_n.lhsNonContracting by decide)]
  rfl
theorem rhs0 (i : S4000x128.Idx) (q : dot_S4000x512_S512x128_S4000x128_1_0_0_1_n_n.contr.Idx) : (dot_S4000x512_S512x128_S4000x128_1_0_0_1_n_n.rhsIdx i q 0).val = (q ⟨0, by decide⟩).val := by
  unfold DotDims.rhsIdx
  rw [dif_neg (show ¬(0 : Fin S512x128.rank) ∈ dot_S4000x512_S512x128_S4000x128_1_0_0_1_n_n.rhsBatch by decide), dif_neg (show ¬(0 : Fin S512x128.rank) ∈ dot_S4000x512_S512x128_S4000x128_1_0_0_1_n_n.rhsNonContracting by decide)]
  rfl
theorem rhs1 (i : S4000x128.Idx) (q : dot_S4000x512_S512x128_S4000x128_1_0_0_1_n_n.contr.Idx) : (dot_S4000x512_S512x128_S4000x128_1_0_0_1_n_n.rhsIdx i q 1).val = (i 1).val := by
  unfold DotDims.rhsIdx
  rw [dif_neg (show ¬(1 : Fin S512x128.rank) ∈ dot_S4000x512_S512x128_S4000x128_1_0_0_1_n_n.rhsBatch by decide), dif_pos (show (1 : Fin S512x128.rank) ∈ dot_S4000x512_S512x128_S4000x128_1_0_0_1_n_n.rhsNonContracting by decide)]
  rfl

/-- The stored column at row p of a block: the sum over k of the feature block's (p, k) times the weight block's
    (k, 0). -/
theorem pay_apply (v0 : Vec Ideal S4000x512 .f32) (v2 : Vec Ideal S512x128 .f32) (p : Fin 4000) :
    k0_pay1 v0 v2 (ix2 p (0 : Fin 1))
      = ∑ k : Fin 512, v0 (ix2 p k) * v2 (ix2 k (0 : Fin 128)) := by
  unfold k0_pay1
  refine (extractStridedSlice_apply ![0, 0] _ slices_S4000x128_o0_0_S4000x1 (ix2 p (0 : Fin 1)) (ix2 p (0 : Fin 128))
    (fun a => by
      match a with
      | ⟨0, _⟩ => show p.val = 0 + p.val; omega
      | ⟨1, _⟩ => rfl)).trans ?_
  simp only [matmul]
  rw [Ideal.matmul_constant_zero_apply, ← Equiv.sum_comp (contrEquiv1 dot_S4000x512_S512x128_S4000x128_1_0_0_1_n_n 512 rfl rfl).symm]
  refine Finset.sum_congr rfl fun k _ => ?_
  have hk := contrEquiv1_symm_val dot_S4000x512_S512x128_S4000x128_1_0_0_1_n_n 512 rfl rfl k
  have el : dot_S4000x512_S512x128_S4000x128_1_0_0_1_n_n.lhsIdx (ix2 p (0 : Fin 128)) ((contrEquiv1 dot_S4000x512_S512x128_S4000x128_1_0_0_1_n_n 512 rfl rfl).symm k) = ix2 p k := funext fun a => Fin.ext (by
    match a with
    | ⟨0, _⟩ => exact lhs0 _ _
    | ⟨1, _⟩ => exact (lhs1 _ _).trans hk)
  have er : dot_S4000x512_S512x128_S4000x128_1_0_0_1_n_n.rhsIdx (ix2 p (0 : Fin 128)) ((contrEquiv1 dot_S4000x512_S512x128_S4000x128_1_0_0_1_n_n 512 rfl rfl).symm k) = ix2 k (0 : Fin 128) := funext fun a => Fin.ext (by
    match a with
    | ⟨0, _⟩ => exact (rhs0 _ _).trans hk
    | ⟨1, _⟩ => exact rhs1 _ _)
  rw [el, er, shapeCast_self]
  rfl

/-! ## The specification of the output array -/

/-- Entry (n, ·) of the projection: the sum over k of x[n, k] · w[k, 0]. -/
def proj (x : S100000x512.Idx → EReal) (w : S512x128.Idx → EReal) : S100000x1.Idx → EReal :=
  fun i => ∑ k : Fin 512, x (ix2 (⟨(i 0).val, idx2_lt0 i⟩ : Fin 100000) k) * w (ix2 k (0 : Fin 128))

/-! ## From blocks to the array -/

/-- The printed index maps over the grid: the feature window and the output window are at row block t, everything else
    at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the projection of the arrays as the region finds them. -/
theorem flushed_eq (c : Dev nD) (t : Fin cfg0.N) :
    (dats m 0 c).flushed 2 t
      = ((cfg0.win 2).blk t).view.read (Elt Ideal) (proj (V m c main_arg0) (V m c main_v3)) := by
  show (cfg0.win 2).cut (grid0.coords t) ((dats m 0 c).after 2 t) = _
  rw [after0_2]
  unfold out0_2
  rw [View.canon_unit_zero hz]
  simp only [View.ld_unit_zero (S := S4000x512) hz, View.ld_unit_zero (S := S512x128) hz]
  obtain ⟨e0, e1, e2, e3, e4, e5⟩ := idx_facts t
  funext j
  have hj0 : (j 0).val < 4000 := (j 0).isLt
  have hj1 : (j 1).val < 1 := (j 1).isLt
  have hj : j = ix2 (⟨(j 0).val, hj0⟩ : Fin 4000) (0 : Fin 1) := by
    funext a
    match a with
    | ⟨0, _⟩ => rfl
    | ⟨1, _⟩ => exact Fin.ext (by show (j 1).val = 0; omega)
  show k0_pay1 (iblk m c 0 t) (iblk m c 1 t) j = proj (V m c main_arg0) (V m c main_v3) (((cfg0.win 2).blk t).view.emb j)
  rw [hj]
  refine (pay_apply (iblk m c 0 t) (iblk m c 1 t) ⟨(j 0).val, hj0⟩).trans ?_
  unfold proj
  refine Finset.sum_congr rfl fun k _ => ?_
  have hk : k.val < 512 := k.isLt
  show xin m c (((cfg0.win 0).blk t).view.emb (ix2 (⟨(j 0).val, hj0⟩ : Fin 4000) k))
      * wpad m c (((cfg0.win 1).blk t).view.emb (ix2 k (0 : Fin 128))) = _
  congr 1
  · congr 1
    funext a; apply Fin.ext
    match a with
    | ⟨0, _⟩ =>
      show win0_0.index t (0 : Fin 2) * 4000 + 1 * (j 0).val = win0_2.index t (0 : Fin 2) * 4000 + 1 * (j 0).val
      omega
    | ⟨1, _⟩ =>
      show win0_0.index t (1 : Fin 2) * 512 + 1 * k.val = k.val
      omega
  · congr 1
    funext a; apply Fin.ext
    match a with
    | ⟨0, _⟩ =>
      show win0_1.index t (0 : Fin 2) * 512 + 1 * k.val = k.val
      omega
    | ⟨1, _⟩ =>
      show win0_1.index t (1 : Fin 2) * 128 + 1 * 0 = 0
      omega

/-- An index of the output array is in point t's block iff each coordinate is in the block's range. -/
theorem mem_blk (t : Fin cfg0.N) (i : S100000x1.Idx) :
    i ∈ ((cfg0.win 2).blk t).view.set ↔ ∀ a : Fin 2, win0_2.index t a * S4000x1.size a ≤ (i a).val ∧ (i a).val < win0_2.index t a * S4000x1.size a + S4000x1.size a := by
  show i ∈ ((View.whole main_v4).slice (win0_2.rect t)).set ↔ _
  rw [View.set_slice_whole, Rect.mem_set_unit]
  exact Iff.rfl

/-- Every index of the output array is in the block of the point its row falls in. -/
theorem cover (i : S100000x1.Idx) : ∃ t : Fin cfg0.N, (cfg0.win 2).flush t = true ∧ i ∈ ((cfg0.win 2).blk t).view.set := by
  have hi0 : (i 0).val < 100000 := (i 0).isLt
  have hi1 : (i 1).val < 1 := (i 1).isLt
  have hN : cfg0.N = 25 := N_0
  refine ⟨⟨(i 0).val / 4000, by rw [hN]; omega⟩, flush0_2 _, ?_⟩
  rw [mem_blk]
  obtain ⟨e0, e1, e2, e3, e4, e5⟩ := idx_facts ⟨(i 0).val / 4000, by rw [hN]; omega⟩
  intro a
  match a with
  | ⟨0, _⟩ =>
    show win0_2.index _ (0 : Fin 2) * 4000 ≤ (i 0).val ∧ (i 0).val < win0_2.index _ (0 : Fin 2) * 4000 + 4000
    rw [e4]
    show (i 0).val / 4000 * 4000 ≤ (i 0).val ∧ (i 0).val < (i 0).val / 4000 * 4000 + 4000
    omega
  | ⟨1, _⟩ =>
    show win0_2.index _ (1 : Fin 2) * 1 ≤ (i 1).val ∧ (i 1).val < win0_2.index _ (1 : Fin 2) * 1 + 1
    rw [e5]
    omega

/-- The output array after the region: the projection of the arrays as the region finds them. -/
theorem final (c : Dev nD) : (dats m 0 c).arrAt 2 cfg0.N = proj (V m c main_arg0) (V m c main_v3) :=
  (dats m 0 c).arrAt_eq_of_cover 2 (proj (V m c main_arg0) (V m c main_v3)) (fun t _ => flushed_eq m c t) cover

/-! ## The padded weight matrix -/

/-- The weight window's array as the region finds it: the zero matrix with its row 0 overwritten by the weight row,
    transposed. -/
theorem wt_eq (c : Dev nD) : wpad m c =
    transpose S512x128 [1, 0] (Host.scatter scatter_S128x512_S1_S1x512_01_n_0_0 (fun _ b => b)
      (broadcastInDim S128x512 ![] bcast_S_S128x512 (constant (F := Ideal) S_ .f32 0x00000000#32))
      (broadcastInDim S1 ![] bcast_S_S1 (constantI S_ 32 0#32))
      (a2 m c)) transposes_S128x512_S512x128_1_0 := by
  show StableHlo.after hostOps0 (fun b => m (c, b)) (Proc.devRef .tc main_v3) = _
  after_results

/-- Its entry (k, 0) is the weight row's (0, k). -/
theorem wt_apply (c : Dev nD) (k : Fin 512) :
    wpad m c (ix2 k (0 : Fin 128)) = a2 m c (ix2 (0 : Fin 1) k) := by
  rw [wt_eq]
  refine (transpose_apply [1, 0] _ transposes_S128x512_S512x128_1_0 (ix2 k (0 : Fin 128)) (ix2 (⟨0, by decide⟩ : Fin 128) k)
    (fun b => by
      match b with
      | ⟨0, _⟩ => rfl
      | ⟨1, _⟩ => rfl)).trans ?_
  exact Cert.RowSet.rowSet_apply (by decide) scatter_S128x512_S1_S1x512_01_n_0_0_wf _ _ (fun _ => rfl) _ k

/-- The output array after the region, entry (n, 0): the sum over k of x[n, k] · W[0, k] of the argument arrays. -/
theorem proj_apply (c : Dev nD) (n : Fin 100000) :
    proj (V m c main_arg0) (V m c main_v3) (ix2 n (0 : Fin 1))
      = ∑ k : Fin 512, a0 m c (ix2 n k) * a2 m c (ix2 (0 : Fin 1) k) := by
  unfold proj
  refine Finset.sum_congr rfl fun k _ => ?_
  show xin m c _ * wpad m c (ix2 k (0 : Fin 128)) = _
  rw [wt_apply m c k]
  congr 1

end Cert.KernelIdeal.KValue

end
-- ==== Proof.LibGraph.lean ====
/-
  GRAPH AGGREGATION OVER THE EXTENDED REALS: general lemmas (arbitrary extents N, E).

  * 'sum_filter_concat': a sum over the E + N positions of a concatenated key list, restricted to the positions whose
    key is n, when the last N keys are 0, 1, …, N − 1 in order: it is the restricted sum over the first E positions
    plus the single term at position E + n. This is "adding one self-loop per node" in sum form.
  * 'vecScatterAdd_apply' / 'colScatterAdd_apply': an accumulating scatter with one scalar start index per update,
    into a vector [N] or a column [N, 1], read at n: the operand there plus the sum of the updates e whose (signed,
    unclamped) index equals n, as a sum over Fin E.
  * 'vecGather_apply' / 'colGather_apply': a gather of single elements of a vector [N] or a column [N, 1] at [E, 1]
    start indices, read at e: the operand at the start index read signed and clamped into [0, N − 1].
  * 'toInt_ofNat_lt' / 'clampIdx_ofNat': a position below N (N at most 2³¹), written as a 32-bit word, reads signed as
    itself, and clamped as itself.
-/
import Idealize.ShloMosaic.Lib.ValueIdx
import Idealize.ShloMosaic.Lib.Pipeline.Value
import Idealize.ShloMosaic.PureOps.Ideal
import proofs.«161635_j58248346468474_2_alg».proof.Proof.LibScatterColumn

open scoped BigOperators
open Idealize.ShloMosaic Idealize.ShloMosaic.ValueIdx

namespace Cert.Graph

/-! ## Sums over a concatenation whose second part is keyed by position -/

/-- Over E + N positions with integer keys, where position E + k (k < N) has key k: the sum of F over the positions
    with key n is the sum over the first E positions with key n, plus F at position E + n. -/
theorem sum_filter_concat {M : Type*} [AddCommMonoid M] {E N : ℕ} (key : Fin (E + N) → ℤ) (F : Fin (E + N) → M)
    (hkey : ∀ k : Fin N, key (Fin.natAdd E k) = (k.val : ℤ)) (n : Fin N) :
    ∑ j ∈ Finset.univ.filter (fun j => key j = (n.val : ℤ)), F j
      = ∑ e ∈ (Finset.univ : Finset (Fin E)).filter (fun e => key (Fin.castAdd N e) = (n.val : ℤ)), F (Fin.castAdd N e)
        + F (Fin.natAdd E n) := by
  rw [Finset.sum_filter, Fin.sum_univ_add, Finset.sum_filter]
  congr 1
  have h : ∀ k : Fin N, (if key (Fin.natAdd E k) = (n.val : ℤ) then F (Fin.natAdd E k) else 0)
      = if k = n then F (Fin.natAdd E n) else 0 := by
    intro k
    rw [hkey k]
    by_cases hk : k = n
    · subst hk; rw [if_pos rfl, if_pos rfl]
    · rw [if_neg hk, if_neg]
      intro h'
      exact hk (Fin.ext (by exact_mod_cast h'))
  rw [Finset.sum_congr rfl (fun k _ => h k), Finset.sum_ite_eq' Finset.univ n, if_pos (Finset.mem_univ n)]

/-! ## Index sets of a vector and of a column, as Fin E -/

/-- A vector's indices are its positions. -/
def vecEquiv (E : ℕ) : Fin E ≃ (⟨1, ![E]⟩ : Shape).Idx where
  toFun e := ix1 e
  invFun j := j 0
  left_inv _ := rfl
  right_inv j := (eq_ix1 j).symm

/-- A column's indices are its rows. -/
def colEquiv (E : ℕ) : Fin E ≃ (⟨2, ![E, 1]⟩ : Shape).Idx := (vecEquiv E).trans (ScatterColumn.colEquiv E)

theorem colEquiv_apply (E : ℕ) (e : Fin E) : colEquiv E e = ix2 e (0 : Fin 1) := rfl

/-! ## The accumulating scatter read at a position -/

/-- The vector form: the result at n is the operand at n plus the sum of the updates whose index is n. -/
theorem vecScatterAdd_apply {N E : ℕ}
    (w1 : ScatterDims.WF (⟨1, ![N]⟩ : Shape) ⟨2, ![E, 1]⟩ ⟨1, ![E]⟩ [] [0] [0] 1)
    (x : (⟨1, ![N]⟩ : Shape).Idx → EReal) (idx : IVec ⟨2, ![E, 1]⟩ 32) (u : (⟨1, ![E]⟩ : Shape).Idx → EReal)
    (n : Fin N) :
    Ideal.hostScatterAdd (⟨[], [0], [0], 1, w1⟩ : ScatterDims (⟨1, ![N]⟩ : Shape) ⟨2, ![E, 1]⟩ ⟨1, ![E]⟩) x idx u (ix1 n)
      = x (ix1 n) + ∑ e ∈ (Finset.univ : Finset (Fin E)).filter
          (fun e => (idx (ix2 e (0 : Fin 1))).toInt = (n.val : ℤ)), u (ix1 e) := by
  show x (ix1 n) + ∑ j ∈ Finset.univ.filter
      (fun j => (ScatterColumn.vecDims N E w1).resultIdx? j idx = some (ix1 n)), u j = _
  congr 1
  symm
  refine Finset.sum_equiv (vecEquiv E) ?_ ?_
  · intro e
    rw [Finset.mem_filter, Finset.mem_filter, ScatterColumn.vec_hit]
    simp only [Finset.mem_univ, true_and]
    rfl
  · intro e _
    rfl

/-- The column form: the result at (n, 0) is the operand there plus the sum of the updates whose index is n. -/
theorem colScatterAdd_apply {N E : ℕ}
    (w2 : ScatterDims.WF (⟨2, ![N, 1]⟩ : Shape) ⟨2, ![E, 1]⟩ ⟨2, ![E, 1]⟩ [1] [0] [0] 1)
    (x : (⟨2, ![N, 1]⟩ : Shape).Idx → EReal) (idx : IVec ⟨2, ![E, 1]⟩ 32) (u : (⟨2, ![E, 1]⟩ : Shape).Idx → EReal)
    (n : Fin N) :
    Ideal.hostScatterAdd (⟨[1], [0], [0], 1, w2⟩ : ScatterDims (⟨2, ![N, 1]⟩ : Shape) ⟨2, ![E, 1]⟩ ⟨2, ![E, 1]⟩)
        x idx u (ix2 n (0 : Fin 1))
      = x (ix2 n (0 : Fin 1)) + ∑ e ∈ (Finset.univ : Finset (Fin E)).filter
          (fun e => (idx (ix2 e (0 : Fin 1))).toInt = (n.val : ℤ)), u (ix2 e (0 : Fin 1)) := by
  show x (ix2 n (0 : Fin 1)) + ∑ j ∈ Finset.univ.filter
      (fun j => (ScatterColumn.colDims N E w2).resultIdx? j idx = some (ix2 n (0 : Fin 1))), u j = _
  congr 1
  symm
  refine Finset.sum_equiv (colEquiv E) ?_ ?_
  · intro e
    rw [Finset.mem_filter, Finset.mem_filter, ScatterColumn.col_hit]
    simp only [Finset.mem_univ, true_and]
    rfl
  · intro e _
    rfl

/-! ## The gather of single elements read at a position -/

/-- A start index read signed and clamped into [0, N − 1]. -/
def clampIdx (N : ℕ) (hN : 0 < N) (v : BitVec 32) : Fin N := ⟨min v.toInt.toNat (N - 1), by omega⟩

/-- Dimension numbers of x[idx] for a vector x : [N] and start indices [E, 1]. -/
abbrev vecGatherDims (N E : ℕ)
    (wf : GatherDims.WF (⟨1, ![N]⟩ : Shape) ⟨2, ![E, 1]⟩ ⟨1, ![E]⟩ [] [0] [] [0] [] 1 ![1]) :
    GatherDims (⟨1, ![N]⟩ : Shape) ⟨2, ![E, 1]⟩ ⟨1, ![E]⟩ := ⟨[], [0], [], [], [0], 1, ![1], wf⟩

/-- Dimension numbers of x[idx] for a column x : [N, 1] and start indices [E, 1]. -/
abbrev colGatherDims (N E : ℕ)
    (wf : GatherDims.WF (⟨2, ![N, 1]⟩ : Shape) ⟨2, ![E, 1]⟩ ⟨2, ![E, 1]⟩ [1] [0] [] [0] [] 1 ![1, 1]) :
    GatherDims (⟨2, ![N, 1]⟩ : Shape) ⟨2, ![E, 1]⟩ ⟨2, ![E, 1]⟩ := ⟨[1], [0], [], [], [0], 1, ![1, 1], wf⟩

/-- The vector gather at e: the operand at the clamped start index idx[e, 0]. -/
theorem vecGather_apply {α : Type} {N E : ℕ} (hN : 0 < N)
    (wf : GatherDims.WF (⟨1, ![N]⟩ : Shape) ⟨2, ![E, 1]⟩ ⟨1, ![E]⟩ [] [0] [] [0] [] 1 ![1])
    (x : (⟨1, ![N]⟩ : Shape).Idx → α) (idx : IVec ⟨2, ![E, 1]⟩ 32) (e : Fin E) :
    Host.gather (vecGatherDims N E wf) x idx (ix1 e) = x (ix1 (clampIdx N hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The column gather at (e, 0): the operand at (clamped start index idx[e, 0], 0). -/
theorem colGather_apply {α : Type} {N E : ℕ} (hN : 0 < N)
    (wf : GatherDims.WF (⟨2, ![N, 1]⟩ : Shape) ⟨2, ![E, 1]⟩ ⟨2, ![E, 1]⟩ [1] [0] [] [0] [] 1 ![1, 1])
    (x : (⟨2, ![N, 1]⟩ : Shape).Idx → α) (idx : IVec ⟨2, ![E, 1]⟩ 32) (e : Fin E) :
    Host.gather (colGatherDims N E wf) x idx (ix2 e (0 : Fin 1))
      = x (ix2 (clampIdx N hN (idx (ix2 e (0 : Fin 1)))) (0 : Fin 1)) := by
  unfold Host.gather
  congr 1
  funext a
  match a with
  | ⟨1, h1⟩ =>
    refine Fin.ext ?_
    have hl : ((colGatherDims N E wf).operandIdx (ix2 e (0 : Fin 1)) idx ⟨1, h1⟩).val < 1 :=
      ((colGatherDims N E wf).operandIdx (ix2 e (0 : Fin 1)) idx ⟨1, h1⟩).isLt
    show ((colGatherDims N E wf).operandIdx (ix2 e (0 : Fin 1)) idx ⟨1, h1⟩).val = 0
    omega
  | ⟨0, _⟩ =>
    refine Fin.ext ?_
    show (colGatherDims N E wf).start (ix2 e (0 : Fin 1)) idx 0 + (colGatherDims N E wf).batchCoord (ix2 e (0 : Fin 1)) 0
      + (colGatherDims N E wf).offCoord (ix2 e (0 : Fin 1)) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (colGatherDims N E wf).startIndexMap from List.mem_singleton.mpr rfl)]
    have hsi : (colGatherDims N E wf).siIdx (ix2 e (0 : Fin 1)) ⟨List.idxOf (0 : Fin 2) (colGatherDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- A position below N, as a 32-bit word, read signed is itself (N at most 2³¹). -/
theorem toInt_ofNat_lt {N : ℕ} (hN31 : N ≤ 2 ^ 31) (k : Fin N) : (BitVec.ofNat 32 k.val).toInt = (k.val : ℤ) := by
  have hk := k.isLt
  have h31 : (2 : ℕ) ^ 31 = 2147483648 := by norm_num
  have h32 : (2 : ℕ) ^ 32 = 4294967296 := by norm_num
  rw [BitVec.toInt_eq_toNat_cond, BitVec.toNat_ofNat]
  have hm : k.val % 2 ^ 32 = k.val := Nat.mod_eq_of_lt (by omega)
  rw [hm, if_pos (by omega)]

/-- A position below N, as a 32-bit word, read signed and clamped is itself (N at most 2³¹). -/
theorem clampIdx_ofNat {N : ℕ} (hN : 0 < N) (hN31 : N ≤ 2 ^ 31) (k : Fin N) :
    clampIdx N hN (BitVec.ofNat 32 k.val) = k := by
  have hk := k.isLt
  refine Fin.ext ?_
  show min (BitVec.ofNat 32 k.val).toInt.toNat (N - 1) = k.val
  rw [toInt_ofNat_lt hN31 k]
  simp only [Int.toNat_natCast]
  omega

end Cert.Graph
-- ==== Proof.GcnAlgebra.lean ====
/-
  THE GRAPH CONVOLUTION'S TWO ARRANGEMENTS ARE ONE FUNCTION (over the extended reals; arbitrary node and edge counts).

  Data: E edges with 32-bit source and target words R, C; a map g from an index word to a node (the reading of an index
  by a gather: wrapped, clamped); a value h per node; numbers z (zero), o (one), b (the bias); a function rs (the
  reciprocal square root).

  * The arrangement WITHOUT explicit self-loops. The degree of node n is (z + one o per edge whose target is n) + o.
    The output at n is ((z + the sum over the edges e with target n of h(source e) · (rs deg(source e) · rs deg(target e)))
    + h n · (rs deg n · rs deg n)) + b: the self-loop's term is added densely.

  * The arrangement WITH self-loops appended. The position list is the E edges followed by the N nodes, position E + k
    having source and target word k. The degree of n is z + one o per position whose target is n; the inverse root is
    rs deg where deg > z and z elsewhere; the output at n is (z + the sum over the positions with target n of
    h(source) · (dinv(source) · dinv(target))) + b.

  They agree at every node when z = 0, o = 1 and g reads the word k as node k: the positions with target n are the
  edges with target n and the one position E + n ('Cert.Graph.sum_filter_concat'); so the two degrees agree up to
  reassociating a sum, every degree is positive (a sum of ones plus one), so the guarded inverse root is the plain one;
  and position E + n contributes h n · (rs deg n · rs deg n). Only commutative-monoid laws of addition are used:
  nothing needs the summands to be finite.
-/
import proofs.«161635_j58248346468474_2_alg».proof.Proof.LibGraph

noncomputable section

open scoped BigOperators
open Idealize.ShloMosaic Idealize.ShloMosaic.ValueIdx

namespace Cert.Gcn

variable {N E : ℕ}

/-- The degree without explicit self-loops: (zero + one per edge into n) + one. -/
def degK (z o : EReal) (C : Fin E → BitVec 32) (n : Fin N) : EReal :=
  (z + ∑ e ∈ (Finset.univ : Finset (Fin E)).filter (fun e => (C e).toInt = (n.val : ℤ)), o) + o

/-- The output without explicit self-loops. -/
def outK (z o b : EReal) (rs : EReal → EReal) (h : Fin N → EReal) (g : BitVec 32 → Fin N)
    (R C : Fin E → BitVec 32) (n : Fin N) : EReal :=
  ((z + ∑ e ∈ (Finset.univ : Finset (Fin E)).filter (fun e => (C e).toInt = (n.val : ℤ)),
      h (g (R e)) * (rs (degK z o C (g (R e))) * rs (degK z o C (g (C e)))))
    + h n * (rs (degK z o C n) * rs (degK z o C n))) + b

/-- The degree over a position list: zero + one per position into n. -/
def degR {T : ℕ} (z o : EReal) (C' : Fin T → BitVec 32) (n : Fin N) : EReal :=
  z + ∑ j ∈ (Finset.univ : Finset (Fin T)).filter (fun j => (C' j).toInt = (n.val : ℤ)), o

/-- The guarded inverse root: rs deg where deg > zero, zero elsewhere. -/
def dinvR {T : ℕ} (z o : EReal) (rs : EReal → EReal) (C' : Fin T → BitVec 32) (n : Fin N) : EReal :=
  Scalar.select (Ideal.cmp .ogt (degR z o C' n) z) (rs (degR z o C' n)) z

/-- The output over a position list. -/
def outR {T : ℕ} (z o b : EReal) (rs : EReal → EReal) (h : Fin N → EReal) (g : BitVec 32 → Fin N)
    (R' C' : Fin T → BitVec 32) (n : Fin N) : EReal :=
  (z + ∑ j ∈ (Finset.univ : Finset (Fin T)).filter (fun j => (C' j).toInt = (n.val : ℤ)),
      h (g (R' j)) * (dinvR z o rs C' (g (R' j)) * dinvR z o rs C' (g (C' j)))) + b

/-- The comparison "greater than" on the extended reals answers one when it holds. -/
theorem cmp_ogt_of_lt {x y : EReal} (h : y < x) : Ideal.cmp .ogt x y = 1#1 := by
  show BitVec.ofBool (decide (y < x)) = 1#1
  rw [decide_eq_true h]; rfl

/-- A degree is positive: a sum of ones, plus one. -/
theorem degK_pos (C : Fin E → BitVec 32) (n : Fin N) : (0 : EReal) < degK 0 1 C n := by
  unfold degK
  rw [zero_add]
  exact lt_of_lt_of_le zero_lt_one (le_add_of_nonneg_left (Finset.sum_nonneg (fun _ _ => zero_le_one)))

section
variable (z o b : EReal) (rs : EReal → EReal) (h : Fin N → EReal) (g : BitVec 32 → Fin N)
  (R C : Fin E → BitVec 32) (R' C' : Fin (E + N) → BitVec 32)
  (hR : ∀ e, R' (Fin.castAdd N e) = R e) (hC : ∀ e, C' (Fin.castAdd N e) = C e)
  (hRn : ∀ k : Fin N, R' (Fin.natAdd E k) = BitVec.ofNat 32 k.val)
  (hCn : ∀ k : Fin N, C' (Fin.natAdd E k) = BitVec.ofNat 32 k.val)
  (hN31 : N ≤ 2 ^ 31)

include hC hCn hN31 in
/-- The two degrees agree: the positions into n are the edges into n and position E + n. -/
theorem degR_eq (n : Fin N) : degR z o C' n = degK z o C n := by
  unfold degR degK
  rw [Graph.sum_filter_concat (fun j => (C' j).toInt) (fun _ => o)
    (fun k => by rw [hCn k]; exact Graph.toInt_ofNat_lt hN31 k) n]
  simp only [hC]
  rw [add_assoc]

include hC hCn hN31 in
/-- With zero and one the numbers 0 and 1, the guarded inverse root is the plain one: every degree is positive. -/
theorem dinvR_eq (n : Fin N) : dinvR 0 1 rs C' n = rs (degK 0 1 C n) := by
  unfold dinvR
  rw [degR_eq 0 1 C C' hC hCn hN31 n, cmp_ogt_of_lt (degK_pos C n), select_one]

include hR hC hRn hCn hN31 in
/-- THE TWO ARRANGEMENTS AGREE at every node, when g reads the word k as node k. -/
theorem outR_eq_outK (hg : ∀ k : Fin N, g (BitVec.ofNat 32 k.val) = k) (n : Fin N) :
    outR 0 1 b rs h g R' C' n = outK 0 1 b rs h g R C n := by
  unfold outR outK
  simp only [dinvR_eq rs C C' hC hCn hN31]
  rw [Graph.sum_filter_concat (fun j => (C' j).toInt)
    (fun j => h (g (R' j)) * (rs (degK 0 1 C (g (R' j))) * rs (degK 0 1 C (g (C' j)))))
    (fun k => by rw [hCn k]; exact Graph.toInt_ofNat_lt hN31 k) n]
  simp only [hR, hC, hRn, hCn, hg]
  congr 1
  exact (add_assoc _ _ _).symm

end

end Cert.Gcn

end
-- ==== Proof.GcnShared.lean ====
/-
  THE SCALAR VOCABULARY the two programs share (node count 100000), over the extended reals and 32-bit index words.

  wrapW     an index word with a negative value counted from the end: v + 100000 if v < 0 (signed), else v
  nodeOf    the node a gather reads for an index word: wrapped, then read signed and clamped into [0, 99999]
  zeroE, oneE   the numbers the two float literals denote (0 and 1)
  rsE       the host's reciprocal square root
  logistic  1 / (1 + exp (−y)), in the host's operations
-/
import proofs.«161635_j58248346468474_2_alg».proof.Proof.GcnAlgebra
import Idealize.ShloMosaic.Lib.IdealHost
import Idealize.ShloMosaic.PureOps.Ideal.Laws

noncomputable section

open Idealize.ShloMosaic Idealize.ShloMosaic.ValueIdx

namespace Cert.Gcn

/-- An index word with a negative value counted from the end. -/
def wrapW (v : BitVec 32) : BitVec 32 := Scalar.select (IntOp.cmpi .slt v 0#32) (IntOp.addi v 100000#32) v

/-- The node a gather reads for an index word. -/
def nodeOf (v : BitVec 32) : Fin 100000 := Graph.clampIdx 100000 (by decide) (wrapW v)

/-- A node's own number, as a word, is not negative: it reads as that node. -/
theorem nodeOf_ofNat (k : Fin 100000) : nodeOf (BitVec.ofNat 32 k.val) = k := by
  have h31 : (100000 : ℕ) ≤ 2 ^ 31 := by norm_num
  have hk := Graph.toInt_ofNat_lt h31 k
  have hw : wrapW (BitVec.ofNat 32 k.val) = BitVec.ofNat 32 k.val := by
    unfold wrapW
    have : IntOp.cmpi .slt (BitVec.ofNat 32 k.val) 0#32 = 0#1 := by
      show BitVec.ofBool ((BitVec.ofNat 32 k.val).slt 0#32) = 0#1
      have hs : (BitVec.ofNat 32 k.val).slt 0#32 = false := by
        rw [BitVec.slt, hk]
        simp
      rw [hs]; rfl
    rw [this, select_zero]
  unfold nodeOf
  rw [hw]
  exact Graph.clampIdx_ofNat (by decide) h31 k

/-- What the float literal 0x00000000 denotes. -/
def zeroE : EReal := Ideal.ofBits .f32 0x00000000#32
/-- What the float literal 0x3F800000 denotes. -/
def oneE : EReal := Ideal.ofBits .f32 0x3F800000#32

theorem zeroE_eq : zeroE = 0 := Ideal.ofBits_zero_f32
theorem oneE_eq : oneE = 1 := Ideal.ofBits_one_f32

/-- The host's reciprocal square root on one number. -/
def rsE (y : EReal) : EReal := FloatOps.hostUnary (F := Ideal) (φ := .f32) .rsqrt y

/-- The logistic function in the host's operations: 1 / (1 + exp (−y)). -/
def logistic (y : EReal) : EReal :=
  FloatOps.hostDivf (F := Ideal) (φ := .f32) oneE (FloatOps.addf (F := Ideal) (φ := .f32) oneE (FloatOps.hostUnary (F := Ideal) (φ := .f32) .exp (FloatOps.hostNegf (F := Ideal) (φ := .f32) y)))

/-- The weight row applied to node n's features. -/
def projAt (x : (⟨2, ![100000, 512]⟩ : Shape).Idx → EReal) (w : (⟨2, ![1, 512]⟩ : Shape).Idx → EReal) (n : Fin 100000) : EReal :=
  ∑ k : Fin 512, x (ix2 n k) * w (ix2 (0 : Fin 1) k)

end Cert.Gcn

end
-- ==== Proof.LibGraphHost.lean ====
/-
  The accumulating scatter in the host operation's own spelling, read at a position, with the pieces named: the operand's
  entry there (z), the index words by update (key) and the updates by position (f). The result is z plus the sum of f
  over the updates whose key is the position. Arbitrary extents.
-/
import proofs.«161635_j58248346468474_2_alg».proof.Proof.LibGraph

open scoped BigOperators
open Idealize.ShloMosaic Idealize.ShloMosaic.ValueIdx

namespace Cert.Graph

/-- The vector form. -/
theorem host_vecScatterAdd_apply {N E : ℕ} (d : ScatterDims (⟨1, ![N]⟩ : Shape) ⟨2, ![E, 1]⟩ ⟨1, ![E]⟩)
    (w1 : ScatterDims.WF (⟨1, ![N]⟩ : Shape) ⟨2, ![E, 1]⟩ ⟨1, ![E]⟩ [] [0] [0] 1) (hd : d = ⟨[], [0], [0], 1, w1⟩)
    (x : FVec Ideal ⟨1, ![N]⟩ .f32) (idx : IVec ⟨2, ![E, 1]⟩ 32) (u : FVec Ideal ⟨1, ![E]⟩ .f32) (n : Fin N)
    (key : Fin E → BitVec 32) (hkey : ∀ e, idx (ix2 e (0 : Fin 1)) = key e)
    (z : EReal) (hz : x (ix1 n) = z) (f : Fin E → EReal) (hf : ∀ e, u (ix1 e) = f e) :
    Host.scatterAdd (F := Ideal) d x idx u (ix1 n)
      = z + ∑ e ∈ (Finset.univ : Finset (Fin E)).filter (fun e => (key e).toInt = (n.val : ℤ)), f e := by
  subst hd
  refine (vecScatterAdd_apply w1 x idx u n).trans ?_
  rw [hz]
  congr 1
  exact Finset.sum_congr (Finset.filter_congr fun e _ => by rw [hkey e]) (fun e _ => hf e)

/-- The column form. -/
theorem host_colScatterAdd_apply {N E : ℕ} (d : ScatterDims (⟨2, ![N, 1]⟩ : Shape) ⟨2, ![E, 1]⟩ ⟨2, ![E, 1]⟩)
    (w2 : ScatterDims.WF (⟨2, ![N, 1]⟩ : Shape) ⟨2, ![E, 1]⟩ ⟨2, ![E, 1]⟩ [1] [0] [0] 1) (hd : d = ⟨[1], [0], [0], 1, w2⟩)
    (x : FVec Ideal ⟨2, ![N, 1]⟩ .f32) (idx : IVec ⟨2, ![E, 1]⟩ 32) (u : FVec Ideal ⟨2, ![E, 1]⟩ .f32) (n : Fin N)
    (key : Fin E → BitVec 32) (hkey : ∀ e, idx (ix2 e (0 : Fin 1)) = key e)
    (z : EReal) (hz : x (ix2 n (0 : Fin 1)) = z) (f : Fin E → EReal) (hf : ∀ e, u (ix2 e (0 : Fin 1)) = f e) :
    Host.scatterAdd (F := Ideal) d x idx u (ix2 n (0 : Fin 1))
      = z + ∑ e ∈ (Finset.univ : Finset (Fin E)).filter (fun e => (key e).toInt = (n.val : ℤ)), f e := by
  subst hd
  refine (colScatterAdd_apply w2 x idx u n).trans ?_
  rw [hz]
  congr 1
  exact Finset.sum_congr (Finset.filter_congr fun e _ => by rw [hkey e]) (fun e _ => hf e)

end Cert.Graph
-- ==== Proof.KernelTail.lean ====
/-
  THE KERNEL PROGRAM'S HOST TAIL as one pure function, and its value at one node (at the extended reals).

  After the launched region the program computes, from the [N, 1] projection h the region left, the edge array and the
  bias: the degrees (zero plus one per edge into the node, plus one for the self-loop), their inverse square roots, per
  edge the product of the two inverse roots and of h at the source, the sum of these per target node, the self-loop's
  term h n · (dinv n · dinv n), the bias, and the logistic function. The stages are named as in the reference's run.
  Read at (n, 0) the tail is logistic (outK … n) of 'Cert.Gcn': the arrangement without explicit self-loops.
-/
import proofs.«161635_j58248346468474_2_alg».proof.Proof.Gen.KernelIdeal
import proofs.«161635_j58248346468474_2_alg».proof.Proof.GcnShared
import proofs.«161635_j58248346468474_2_alg».proof.Proof.LibGraphHost
import Idealize.ShloMosaic.Lib.Pipeline.Value
import Idealize.ShloMosaic.Lib.ValueIdx
import Idealize.ShloMosaic.Lib.IdealHost

set_option maxRecDepth 16384

noncomputable section

open Idealize.ShloMosaic Idealize.ShloMosaic.TcCoe Idealize.ShloMosaic.ValueIdx

namespace Cert.KernelIdeal.KTail

open Cert.KernelIdeal Cert.KernelIdeal.Gen Cert.Gcn

/-! ## The stages -/

/-- The edges' source words. -/
def rowsK (x1 : (⟨S2x3200000, .i32⟩ : BufTy).Contents (Elt Ideal)) : (⟨S3200000, .i32⟩ : BufTy).Contents (Elt Ideal) :=
  shapeCast _ (extractStridedSlice S1x3200000 ![0, 0] x1 slices_S2x3200000_S1x3200000_0_0) shapeCasts_S1x3200000_S3200000

/-- The edges' target words. -/
def colsK (x1 : (⟨S2x3200000, .i32⟩ : BufTy).Contents (Elt Ideal)) : (⟨S3200000, .i32⟩ : BufTy).Contents (Elt Ideal) :=
  shapeCast _ (extractStridedSlice S1x3200000 ![1, 0] x1 slices_S2x3200000_S1x3200000_1_0) shapeCasts_S1x3200000_S3200000

/-- A node index with a negative value counted from the end. -/
def wrap (v : (⟨S3200000, .i32⟩ : BufTy).Contents (Elt Ideal)) : (⟨S3200000, .i32⟩ : BufTy).Contents (Elt Ideal) :=
  select (cmpi .slt v (broadcastInDim S3200000 ![] bcast_S_S3200000 (constantI S_ 32 0#32))) (addi v (broadcastInDim S3200000 ![] bcast_S_S3200000 (constantI S_ 32 100000#32))) v

/-- A list of edges viewed as a column. -/
def col1 {α : Type} (v : S3200000.Idx → α) : S3200000x1.Idx → α :=
  broadcastInDim S3200000x1 ![0] bcast_S3200000_S3200000x1_0 v

/-- Per node: (zero plus one per edge into it) plus one. -/
def deg (x1 : (⟨S2x3200000, .i32⟩ : BufTy).Contents (Elt Ideal)) : FVec Ideal S100000 .f32 :=
  addf (Host.scatterAdd scatter_S100000_S3200000x1_S3200000_n_0_0_1 (broadcastInDim S100000 ![] bcast_S_S100000 (constant S_ .f32 0x00000000#32)) (col1 (colsK x1)) (broadcastInDim S3200000 ![] bcast_S_S3200000 (constant S_ .f32 0x3F800000#32))) (broadcastInDim S100000 ![] bcast_S_S100000 (constant S_ .f32 0x3F800000#32))

/-- deg^(-1/2). -/
def dinv (x1 : (⟨S2x3200000, .i32⟩ : BufTy).Contents (Elt Ideal)) : FVec Ideal S100000 .f32 :=
  Host.rsqrt (deg x1)

/-- Per edge, dinv at the source times dinv at the target. -/
def norm (x1 : (⟨S2x3200000, .i32⟩ : BufTy).Contents (Elt Ideal)) : FVec Ideal S3200000 .f32 :=
  mulf (Host.gather gather_S100000_S3200000x1_S3200000_n_0_n_n_0_1_1 (dinv x1) (col1 (wrap (rowsK x1)))) (Host.gather gather_S100000_S3200000x1_S3200000_n_0_n_n_0_1_1 (dinv x1) (col1 (wrap (colsK x1))))

/-- Per edge, h at the source times norm. -/
def msg (h : FVec Ideal S100000x1 .f32) (x1 : (⟨S2x3200000, .i32⟩ : BufTy).Contents (Elt Ideal)) : FVec Ideal S3200000x1 .f32 :=
  mulf (Host.gather gather_S100000x1_S3200000x1_S3200000x1_1_0_n_n_0_1_11 h (col1 (wrap (rowsK x1)))) (col1 (norm x1))

/-- Per node, zero plus the sum of msg over the edges into it. -/
def agg (h : FVec Ideal S100000x1 .f32) (x1 : (⟨S2x3200000, .i32⟩ : BufTy).Contents (Elt Ideal)) : FVec Ideal S100000x1 .f32 :=
  Host.scatterAdd scatter_S100000x1_S3200000x1_S3200000x1_1_0_0_1 (broadcastInDim S100000x1 ![] bcast_S_S100000x1 (constant S_ .f32 0x00000000#32)) (col1 (colsK x1)) (msg h x1)

/-- The self-loop's term: h n · (dinv n · dinv n). -/
def selfTerm (h : FVec Ideal S100000x1 .f32) (x1 : (⟨S2x3200000, .i32⟩ : BufTy).Contents (Elt Ideal)) : FVec Ideal S100000x1 .f32 :=
  mulf h (broadcastInDim S100000x1 ![0] bcast_S100000_S100000x1_0 (mulf (dinv x1) (dinv x1)))

/-- The bias, one number, spread down the column. -/
def biasCol (x3 : (⟨S1, .f32⟩ : BufTy).Contents (Elt Ideal)) : FVec Ideal S100000x1 .f32 :=
  broadcastInDim S100000x1 ![0, 1] bcast_S1x1_S100000x1_0_1 (broadcastInDim S1x1 ![1] bcast_S1_S1x1_1 x3)

/-- The logistic function, entry by entry. -/
def sigm (z : FVec Ideal S100000x1 .f32) : FVec Ideal S100000x1 .f32 :=
  Host.divf (broadcastInDim S100000x1 ![] bcast_S_S100000x1 (constant S_ .f32 0x3F800000#32)) (addf (broadcastInDim S100000x1 ![] bcast_S_S100000x1 (constant S_ .f32 0x3F800000#32)) (Host.exp (Host.negf z)))

/-- The tail's result as a function of the projection, the edge array and the bias. -/
def result (h : FVec Ideal S100000x1 .f32) (x1 : (⟨S2x3200000, .i32⟩ : BufTy).Contents (Elt Ideal)) (x3 : (⟨S1, .f32⟩ : BufTy).Contents (Elt Ideal)) : FVec Ideal S100000x1 .f32 :=
  sigm (addf (addf (agg h x1) (selfTerm h x1)) (biasCol x3))

/-! ## The tail at one node -/

variable (h : FVec Ideal S100000x1 .f32) (x1 : (⟨S2x3200000, .i32⟩ : BufTy).Contents (Elt Ideal)) (x3 : (⟨S1, .f32⟩ : BufTy).Contents (Elt Ideal))

/-- Row r of the edge array, flattened, at edge e. -/
theorem edgeRow_apply (r : Fin 2) (off : Fin 2 → ℕ) (hoff : off = ![r.val, 0]) (hs : S2x3200000.Slices off S1x3200000)
    (e : Fin 3200000) :
    shapeCast S3200000 (extractStridedSlice S1x3200000 off x1 hs) shapeCasts_S1x3200000_S3200000 (ix1 e)
      = x1 (ix2 r e) := by
  subst hoff
  refine (shapeCast_apply _ shapeCasts_S1x3200000_S3200000 (ix1 e) (ix2 (0 : Fin 1) e)
    (by rewrite [Shape.rowMajor_val_two, Shape.rowMajor_val_one]; show 0 * 3200000 + e.val = e.val; omega)).trans ?_
  exact extractStridedSlice_apply _ x1 hs (ix2 (0 : Fin 1) e) (ix2 r e) (fun a => match a with
    | ⟨0, _⟩ => by show r.val = r.val + 0; omega
    | ⟨1, _⟩ => by show e.val = 0 + e.val; omega)

/-- The source and target words by edge. -/
def R (e : Fin 3200000) : BitVec 32 := x1 (ix2 (0 : Fin 2) e)
def C (e : Fin 3200000) : BitVec 32 := x1 (ix2 (1 : Fin 2) e)

theorem rowsK_apply (e : Fin 3200000) : rowsK x1 (ix1 e) = R x1 e := edgeRow_apply x1 0 _ rfl _ e
theorem colsK_apply (e : Fin 3200000) : colsK x1 (ix1 e) = C x1 e := edgeRow_apply x1 1 _ rfl _ e

/-- A list viewed as a column, read at (e, 0). -/
theorem col1_apply {α : Type} (v : S3200000.Idx → α) (e : Fin 3200000) : col1 v (ix2 e (0 : Fin 1)) = v (ix1 e) := by
  unfold col1
  exact broadcastInDim_apply _ bcast_S3200000_S3200000x1_0 v (ix2 e (0 : Fin 1)) (ix1 e) (fun a => match a with
    | ⟨0, _⟩ => by show e.val = if (3200000 : Nat) = 1 then 0 else e.val; rw [if_neg (by decide)])

/-! ### Pointwise operations at one index, over any operand -/

theorem wrap_apply (v : (⟨S3200000, .i32⟩ : BufTy).Contents (Elt Ideal)) (e : Fin 3200000) :
    wrap v (ix1 e) = wrapW (v (ix1 e)) := rfl

theorem rsqrt_apply (x : FVec Ideal S100000 .f32) (k : Fin 100000) : Host.rsqrt x (ix1 k) = rsE (x (ix1 k)) := rfl

theorem sigm_apply (z : FVec Ideal S100000x1 .f32) (n : Fin 100000) :
    sigm z (ix2 n (0 : Fin 1)) = logistic (z (ix2 n (0 : Fin 1))) := rfl

theorem zeroVec_apply (k : Fin 100000) :
    (broadcastInDim S100000 ![] bcast_S_S100000 (constant (F := Ideal) S_ .f32 0x00000000#32) : FVec Ideal S100000 .f32) (ix1 k) = zeroE := rfl

theorem oneVec_apply (k : Fin 100000) :
    (broadcastInDim S100000 ![] bcast_S_S100000 (constant (F := Ideal) S_ .f32 0x3F800000#32) : FVec Ideal S100000 .f32) (ix1 k) = oneE := rfl

theorem oneEdges_apply (e : Fin 3200000) :
    (broadcastInDim S3200000 ![] bcast_S_S3200000 (constant (F := Ideal) S_ .f32 0x3F800000#32) : FVec Ideal S3200000 .f32) (ix1 e) = oneE := rfl

theorem zeroCol_apply (n : Fin 100000) :
    (broadcastInDim S100000x1 ![] bcast_S_S100000x1 (constant (F := Ideal) S_ .f32 0x00000000#32) : FVec Ideal S100000x1 .f32) (ix2 n (0 : Fin 1)) = zeroE := rfl

/-- A gather of a vector at wrapped index words, read at edge e. -/
theorem gatherV_apply (x : FVec Ideal S100000 .f32) (v : (⟨S3200000, .i32⟩ : BufTy).Contents (Elt Ideal)) (e : Fin 3200000) :
    Host.gather gather_S100000_S3200000x1_S3200000_n_0_n_n_0_1_1 x (col1 (wrap v)) (ix1 e) = x (ix1 (nodeOf (v (ix1 e)))) := by
  refine (Graph.vecGather_apply (by decide) gather_S100000_S3200000x1_S3200000_n_0_n_n_0_1_1_wf x _ e).trans ?_
  rw [col1_apply, wrap_apply]
  rfl

/-- A gather of a column at wrapped index words, read at (e, 0). -/
theorem gatherC_apply (x : FVec Ideal S100000x1 .f32) (v : (⟨S3200000, .i32⟩ : BufTy).Contents (Elt Ideal)) (e : Fin 3200000) :
    Host.gather gather_S100000x1_S3200000x1_S3200000x1_1_0_n_n_0_1_11 x (col1 (wrap v)) (ix2 e (0 : Fin 1))
      = x (ix2 (nodeOf (v (ix1 e))) (0 : Fin 1)) := by
  refine (Graph.colGather_apply (by decide) gather_S100000x1_S3200000x1_S3200000x1_1_0_n_n_0_1_11_wf x _ e).trans ?_
  rw [col1_apply, wrap_apply]
  rfl

/-! ### The stages at one index -/

theorem deg_apply (k : Fin 100000) : deg x1 (ix1 k) = degK zeroE oneE (C x1) k := by
  unfold deg degK
  rw [addf_apply, oneVec_apply]
  refine congrArg (· + oneE) ?_
  exact Graph.host_vecScatterAdd_apply _ scatter_S100000_S3200000x1_S3200000_n_0_0_1_wf rfl _ _ _ k (C x1)
    (fun e => by rw [col1_apply, colsK_apply]) zeroE (zeroVec_apply k) (fun _ => oneE) (fun e => oneEdges_apply e)

theorem dinv_apply (k : Fin 100000) : dinv x1 (ix1 k) = rsE (degK zeroE oneE (C x1) k) := by
  unfold dinv
  rw [rsqrt_apply, deg_apply]

theorem norm_apply (e : Fin 3200000) :
    norm x1 (ix1 e) = rsE (degK zeroE oneE (C x1) (nodeOf (R x1 e))) * rsE (degK zeroE oneE (C x1) (nodeOf (C x1 e))) := by
  unfold norm
  rw [mulf_apply, gatherV_apply, gatherV_apply, rowsK_apply, colsK_apply, dinv_apply, dinv_apply]

theorem msg_apply (e : Fin 3200000) :
    msg h x1 (ix2 e (0 : Fin 1))
      = h (ix2 (nodeOf (R x1 e)) (0 : Fin 1))
        * (rsE (degK zeroE oneE (C x1) (nodeOf (R x1 e))) * rsE (degK zeroE oneE (C x1) (nodeOf (C x1 e)))) := by
  unfold msg
  rw [mulf_apply, gatherC_apply, rowsK_apply, col1_apply, norm_apply]

theorem agg_apply (n : Fin 100000) :
    agg h x1 (ix2 n (0 : Fin 1))
      = zeroE + ∑ e ∈ (Finset.univ : Finset (Fin 3200000)).filter (fun e => (C x1 e).toInt = (n.val : ℤ)),
          h (ix2 (nodeOf (R x1 e)) (0 : Fin 1))
            * (rsE (degK zeroE oneE (C x1) (nodeOf (R x1 e))) * rsE (degK zeroE oneE (C x1) (nodeOf (C x1 e)))) := by
  unfold agg
  exact Graph.host_colScatterAdd_apply _ scatter_S100000x1_S3200000x1_S3200000x1_1_0_0_1_wf rfl _ _ _ n (C x1)
    (fun e => by rw [col1_apply, colsK_apply]) zeroE (zeroCol_apply n) _ (fun e => msg_apply h x1 e)

theorem selfTerm_apply (n : Fin 100000) :
    selfTerm h x1 (ix2 n (0 : Fin 1))
      = h (ix2 n (0 : Fin 1)) * (rsE (degK zeroE oneE (C x1) n) * rsE (degK zeroE oneE (C x1) n)) := by
  unfold selfTerm
  rw [mulf_apply]
  refine congrArg (h (ix2 n (0 : Fin 1)) * ·) ?_
  refine (broadcastInDim_apply _ bcast_S100000_S100000x1_0 _ (ix2 n (0 : Fin 1)) (ix1 n) (fun a => match a with
    | ⟨0, _⟩ => by show n.val = if (100000 : Nat) = 1 then 0 else n.val; rw [if_neg (by decide)])).trans ?_
  rw [mulf_apply, dinv_apply]

/-- The bias column holds the bias's one entry. -/
theorem biasCol_apply (n : Fin 100000) : biasCol x3 (ix2 n (0 : Fin 1)) = x3 (ix1 (0 : Fin 1)) := by
  unfold biasCol
  refine (broadcastInDim_apply _ bcast_S1x1_S100000x1_0_1 _ (ix2 n (0 : Fin 1)) (ix2 (0 : Fin 1) (0 : Fin 1)) (fun a => match a with
    | ⟨0, _⟩ => by show 0 = if (1 : Nat) = 1 then 0 else n.val; rw [if_pos rfl]
    | ⟨1, _⟩ => by show 0 = if (1 : Nat) = 1 then 0 else 0; rw [if_pos rfl])).trans ?_
  exact broadcastInDim_apply _ bcast_S1_S1x1_1 x3 (ix2 (0 : Fin 1) (0 : Fin 1)) (ix1 (0 : Fin 1)) (fun a => match a with
    | ⟨0, _⟩ => by show 0 = if (1 : Nat) = 1 then 0 else 0; rw [if_pos rfl])

/-- THE TAIL'S RESULT AT NODE n. -/
theorem result_apply (n : Fin 100000) :
    result h x1 x3 (ix2 n (0 : Fin 1))
      = logistic (outK zeroE oneE (x3 (ix1 (0 : Fin 1))) rsE (fun k => h (ix2 k (0 : Fin 1))) nodeOf (R x1) (C x1) n) := by
  unfold result outK
  rw [sigm_apply, addf_apply, addf_apply, agg_apply, selfTerm_apply, biasCol_apply]

end Cert.KernelIdeal.KTail

end
-- ==== Proof.KernelRun.lean ====
/-
  THE KERNEL PROGRAM'S RUN, read back: its result as a pure function of the argument arrays (at the extended reals).

  The generated frame run leaves the region's output array at what the proof data computes and every other buffer at
  what the host lines after the region make of the memory the region leaves. Here the result buffer is read: the tail's
  function ('KTail.result') of the region's output array — the projection of the features by the padded weights
  ('KValue.final') —, of the edge array and of the bias as launched.
-/
import proofs.«161635_j58248346468474_2_alg».proof.Proof.KernelValue
import proofs.«161635_j58248346468474_2_alg».proof.Proof.KernelTail

set_option maxRecDepth 65536

noncomputable section

open Idealize.ShloMosaic Idealize.ShloMosaic.TcCoe Idealize.SL.Sem Idealize.ShloMosaic.ValueIdx
open Idealize.ShloMosaic.Pipeline (Dat)

namespace Cert.KernelIdeal.KRun

open Cert.KernelIdeal Cert.KernelIdeal.Gen

variable (m : (ℓ : Loc nD τ sig) → Buf (Elt Ideal) ℓ) (ρ : Dev nD → PrngReg)

set_option maxHeartbeats 4000000 in
/-- The result buffer after the host lines that follow the region: the tail's function of the region's output array,
    the edge array and the bias. -/
theorem tail_eq (c : Dev nD) :
    Pipeline.afterTail₀ cfgs (dats m) 0 (V0 m) [hostOps1] c main_v55
      = KTail.result ((dats m 0 c).arrAt 2 cfg0.N) (m ((c : Thread nD τ).loc main_arg1)) (m ((c : Thread nD τ).loc main_arg3)) := by
  unfold Pipeline.afterTail₀
  have e4 : Pipeline.withArrays (cfgs 0).spec c (V0 m c) (fun w => (dats m 0 c).arrAt w (cfgs 0).N) (Proc.devRef .tc main_v4)
      = (dats m 0 c).arrAt 2 cfg0.N :=
    Pipeline.withArrays_arr spec0 launch0.win.arr_inj c _ _ 2
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  generalize Pipeline.withArrays (cfgs 0).spec c (V0 m c) (fun w => (dats m 0 c).arrAt w (cfgs 0).N) = W at e4 e1 e3 ⊢
  show StableHlo.after hostOps1 W (Proc.devRef .tc main_v55) = _
  after_results_simp
  rw [e4, e1, e3]
  rfl

/-- Every weakly fair execution of the kernel program terminates with its result at the tail's function of the
    projection, and its argument arrays unchanged. -/
theorem run : θ_run (defs (F := Ideal)) (onTc (τ := τ) (main (F := Ideal))) ⟨m, fun _ => 0, ρ⟩ (fun r => ∀ c : Dev nD,
      r.2.mem ((c.tc : Thread nD τ).loc main_v55)
        = KTail.result (KValue.proj (V m c main_arg0) (V m c main_v3)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      (((h c).2 main_v55 (Pipeline.mem_restRefs_of main_v55 (by decide) (by decide))).trans (tail_eq m c)).trans
        (by rw [KValue.final m c]),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.KRun

end
-- ==== Proof.RefRun.lean ====
/-
  THE REFERENCE'S RUN, read back as one pure function of its four argument arrays (at the extended reals).

  The reference is a straight line of host operations (the call of the outlined 'where' stands as its three operations).
  Every weakly fair execution ends with the result buffer at the composition of those operations applied to the argument
  arrays as launched, and the arguments unchanged. The composition is named stage by stage, after what each stage is for
  the graph convolution:

    rows / cols   the edges' source / target nodes followed by 0, 1, …, N − 1: one self-loop per node
    wrap          a node index with a negative value counted from the end (index + N)
    deg           per node, 0 plus one for every position whose target is that node
    dinv          deg^(-1/2) where deg is positive, 0 elsewhere
    proj          the feature matrix times the weight row, an [N, 1] column
    norm          per position, dinv at the source times dinv at the target
    msg           per position, proj at the source times norm
    agg           per node, 0 plus the sum of msg over the positions whose target is that node
    out           agg plus the bias
    sigm          the logistic function, 1 / (1 + exp (−z)), entry by entry
-/
import proofs.«161635_j58248346468474_2_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Two lists joined end to end: 3200000 entries followed by 100000 (the host's concatenation along the one axis). -/
def cat2 (a : (⟨S3200000, .i32⟩ : BufTy).Contents (Elt F)) (b : (⟨S100000, .i32⟩ : BufTy).Contents (Elt F)) : (⟨S3300000, .i32⟩ : BufTy).Contents (Elt F) :=
  concatenate S3300000 0 [⟨S3200000, a⟩, ⟨S100000, b⟩] concatenates_S3200000_S100000_S3300000_d0

/-- The reference's 68 host operations, in order; the three operations of the outlined 'where' stand in its call's
    place, over the call's own buffers. -/
abbrev ops : List (HloOp τ sig (Elt F)) :=
  [ unary main_arg2 main_v0 ((transpose S512x1 [1, 0] · transposes_S1x512_S512x1_1_0) : (⟨S1x512, .f32⟩ : BufTy).Contents (Elt F) → (⟨S512x1, .f32⟩ : BufTy).Contents (Elt F)),
    binary main_arg0 main_v0 main_v1 ((fun l r => Host.dotGeneral dot_S100000x512_S512x1_S100000x1_1_0_0_1_n_n none l r) : (⟨S100000x512, .f32⟩ : BufTy).Contents (Elt F) → (⟨S512x1, .f32⟩ : BufTy).Contents (Elt F) → (⟨S100000x1, .f32⟩ : BufTy).Contents (Elt F)),
    nullary main_v2 (iotaInDim S100000 32 0),
    unary main_arg1 main_v3 ((extractStridedSlice S1x3200000 ![0, 0] · slices_S2x3200000_S1x3200000_0_0) : (⟨S2x3200000, .i32⟩ : BufTy).Contents (Elt F) → (⟨S1x3200000, .i32⟩ : BufTy).Contents (Elt F)),
    reshape main_v3 main_v4 rfl shapeCasts_S1x3200000_S3200000,
    binary main_v4 main_v2 main_v5 (cat2 (F := F) : (⟨S3200000, .i32⟩ : BufTy).Contents (Elt F) → (⟨S100000, .i32⟩ : BufTy).Contents (Elt F) → (⟨S3300000, .i32⟩ : BufTy).Contents (Elt F)),
    unary main_arg1 main_v6 ((extractStridedSlice S1x3200000 ![1, 0] · slices_S2x3200000_S1x3200000_1_0) : (⟨S2x3200000, .i32⟩ : BufTy).Contents (Elt F) → (⟨S1x3200000, .i32⟩ : BufTy).Contents (Elt F)),
    reshape main_v6 main_v7 rfl shapeCasts_S1x3200000_S3200000,
    binary main_v7 main_v2 main_v8 (cat2 (F := F) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v9 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v10 (broadcastInDim S100000 ![] bcast_S_S100000 : (⟨S_, .f32⟩ : BufTy).Contents (Elt F) → (⟨S100000, .f32⟩ : BufTy).Contents (Elt F)),
    unary main_v8 main_v11 (broadcastInDim S3300000x1 ![0] bcast_S3300000_S3300000x1_0 : (⟨S3300000, .i32⟩ : BufTy).Contents (Elt F) → (⟨S3300000x1, .i32⟩ : BufTy).Contents (Elt F)),
    ternary main_v10 main_v11 main_v9 main_v12 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v13 (broadcastInDim S100000 ![] bcast_S_S100000 : (⟨S_, .f32⟩ : BufTy).Contents (Elt F) → (⟨S100000, .f32⟩ : BufTy).Contents (Elt F)),
    binary main_v12 main_v13 main_v14 (cmpf .ogt : (⟨S100000, .f32⟩ : BufTy).Contents (Elt F) → (⟨S100000, .f32⟩ : BufTy).Contents (Elt F) → (⟨S100000, .i1⟩ : BufTy).Contents (Elt F)),
    unary main_v12 main_v15 (Host.rsqrt : (⟨S100000, .f32⟩ : BufTy).Contents (Elt F) → (⟨S100000, .f32⟩ : BufTy).Contents (Elt F)),
    nullary main_cst_2 (constant S_ .f32 0x00000000#32),
    unary main_cst_2 main_call0_v0 (id : (⟨S_, .f32⟩ : BufTy).Contents (Elt F) → (⟨S_, .f32⟩ : BufTy).Contents (Elt F)),
    unary main_call0_v0 main_call0_v1 (broadcastInDim S100000 ![] bcast_S_S100000 : (⟨S_, .f32⟩ : BufTy).Contents (Elt F) → (⟨S100000, .f32⟩ : BufTy).Contents (Elt F)),
    ternary main_v14 main_v15 main_call0_v1 main_v16 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v17 (broadcastInDim S3300000 ![] bcast_S_S3300000 : (⟨S_, .i32⟩ : BufTy).Contents (Elt F) → (⟨S3300000, .i32⟩ : BufTy).Contents (Elt F)),
    binary main_v5 main_v17 main_v18 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v19 (broadcastInDim S3300000 ![] bcast_S_S3300000 : (⟨S_, .i32⟩ : BufTy).Contents (Elt F) → (⟨S3300000, .i32⟩ : BufTy).Contents (Elt F)),
    binary main_v5 main_v19 main_v20 (addi : (⟨S3300000, .i32⟩ : BufTy).Contents (Elt F) → (⟨S3300000, .i32⟩ : BufTy).Contents (Elt F) → (⟨S3300000, .i32⟩ : BufTy).Contents (Elt F)),
    ternary main_v18 main_v20 main_v5 main_v21 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v21 main_v22 (broadcastInDim S3300000x1 ![0] bcast_S3300000_S3300000x1_0 : (⟨S3300000, .i32⟩ : BufTy).Contents (Elt F) → (⟨S3300000x1, .i32⟩ : BufTy).Contents (Elt F)),
    binary main_v16 main_v22 main_v23 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v24 (broadcastInDim S3300000 ![] bcast_S_S3300000 : (⟨S_, .i32⟩ : BufTy).Contents (Elt F) → (⟨S3300000, .i32⟩ : BufTy).Contents (Elt F)),
    binary main_v8 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v26 (broadcastInDim S3300000 ![] bcast_S_S3300000 : (⟨S_, .i32⟩ : BufTy).Contents (Elt F) → (⟨S3300000, .i32⟩ : BufTy).Contents (Elt F)),
    binary main_v8 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v8 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v16 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)),
    nullary main_c_6 (constantI S_ 32 0#32),
    unary main_c_6 main_v32 (broadcastInDim S3300000 ![] bcast_S_S3300000 : (⟨S_, .i32⟩ : BufTy).Contents (Elt F) → (⟨S3300000, .i32⟩ : BufTy).Contents (Elt F)),
    binary main_v5 main_v32 main_v33 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v34 (broadcastInDim S3300000 ![] bcast_S_S3300000 : (⟨S_, .i32⟩ : BufTy).Contents (Elt F) → (⟨S3300000, .i32⟩ : BufTy).Contents (Elt F)),
    binary main_v5 main_v34 main_v35 (addi : (⟨S3300000, .i32⟩ : BufTy).Contents (Elt F) → (⟨S3300000, .i32⟩ : BufTy).Contents (Elt F) → (⟨S3300000, .i32⟩ : BufTy).Contents (Elt F)),
    ternary main_v33 main_v35 main_v5 main_v36 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v36 main_v37 (broadcastInDim S3300000x1 ![0] bcast_S3300000_S3300000x1_0 : (⟨S3300000, .i32⟩ : BufTy).Contents (Elt F) → (⟨S3300000x1, .i32⟩ : BufTy).Contents (Elt F)),
    binary main_v1 main_v37 main_v38 ((fun x i => Host.gather gather_S100000x1_S3300000x1_S3300000x1_1_0_n_n_0_1_11 x i) : (⟨S100000x1, .f32⟩ : BufTy).Contents (Elt F) → (⟨S3300000x1, .i32⟩ : BufTy).Contents (Elt F) → (⟨S3300000x1, .f32⟩ : BufTy).Contents (Elt F)),
    unary main_v31 main_v39 (broadcastInDim S3300000x1 ![0] bcast_S3300000_S3300000x1_0 : (⟨S3300000, .f32⟩ : BufTy).Contents (Elt F) → (⟨S3300000x1, .f32⟩ : BufTy).Contents (Elt F)),
    binary main_v38 main_v39 main_v40 (mulf : (⟨S3300000x1, .f32⟩ : BufTy).Contents (Elt F) → (⟨S3300000x1, .f32⟩ : BufTy).Contents (Elt F) → (⟨S3300000x1, .f32⟩ : BufTy).Contents (Elt F)),
    nullary main_cst_8 (constant S_ .f32 0x00000000#32),
    unary main_cst_8 main_v41 (broadcastInDim S100000x1 ![] bcast_S_S100000x1 : (⟨S_, .f32⟩ : BufTy).Contents (Elt F) → (⟨S100000x1, .f32⟩ : BufTy).Contents (Elt F)),
    unary main_v8 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x1_S3300000x1_S3300000x1_1_0_0_1 x i u) : (⟨S100000x1, .f32⟩ : BufTy).Contents (Elt F) → (⟨S3300000x1, .i32⟩ : BufTy).Contents (Elt F) → (⟨S3300000x1, .f32⟩ : BufTy).Contents (Elt F) → (⟨S100000x1, .f32⟩ : BufTy).Contents (Elt F)),
    unary main_arg3 main_v44 (broadcastInDim S1x1 ![1] bcast_S1_S1x1_1 : (⟨S1, .f32⟩ : BufTy).Contents (Elt F) → (⟨S1x1, .f32⟩ : BufTy).Contents (Elt F)),
    unary main_v44 main_v45 (broadcastInDim S100000x1 ![0, 1] bcast_S1x1_S100000x1_0_1 : (⟨S1x1, .f32⟩ : BufTy).Contents (Elt F) → (⟨S100000x1, .f32⟩ : BufTy).Contents (Elt F)),
    binary main_v43 main_v45 main_v46 (addf : (⟨S100000x1, .f32⟩ : BufTy).Contents (Elt F) → (⟨S100000x1, .f32⟩ : BufTy).Contents (Elt F) → (⟨S100000x1, .f32⟩ : BufTy).Contents (Elt F)),
    unary main_v46 main_v47 (Host.negf : (⟨S100000x1, .f32⟩ : BufTy).Contents (Elt F) → (⟨S100000x1, .f32⟩ : BufTy).Contents (Elt F)),
    unary main_v47 main_v48 (Host.exp : (⟨S100000x1, .f32⟩ : BufTy).Contents (Elt F) → (⟨S100000x1, .f32⟩ : BufTy).Contents (Elt F)),
    nullary main_cst_9 (constant S_ .f32 0x3F800000#32),
    unary main_cst_9 main_v49 (broadcastInDim S100000x1 ![] bcast_S_S100000x1 : (⟨S_, .f32⟩ : BufTy).Contents (Elt F) → (⟨S100000x1, .f32⟩ : BufTy).Contents (Elt F)),
    binary main_v49 main_v48 main_v50 (addf : (⟨S100000x1, .f32⟩ : BufTy).Contents (Elt F) → (⟨S100000x1, .f32⟩ : BufTy).Contents (Elt F) → (⟨S100000x1, .f32⟩ : BufTy).Contents (Elt F)),
    nullary main_cst_10 (constant S_ .f32 0x3F800000#32),
    unary main_cst_10 main_v51 (broadcastInDim S100000x1 ![] bcast_S_S100000x1 : (⟨S_, .f32⟩ : BufTy).Contents (Elt F) → (⟨S100000x1, .f32⟩ : BufTy).Contents (Elt F)),
    binary main_v51 main_v50 main_v52 (Host.divf : (⟨S100000x1, .f32⟩ : BufTy).Contents (Elt F) → (⟨S100000x1, .f32⟩ : BufTy).Contents (Elt F) → (⟨S100000x1, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-! ## The stages, at the extended reals -/

/-- The edges' source nodes followed by every node. -/
def rows (x1 : (⟨S2x3200000, .i32⟩ : BufTy).Contents (Elt Ideal)) : (⟨S3300000, .i32⟩ : BufTy).Contents (Elt Ideal) :=
  cat2 (F := Ideal) (shapeCast _ (extractStridedSlice S1x3200000 ![0, 0] x1 slices_S2x3200000_S1x3200000_0_0) shapeCasts_S1x3200000_S3200000) (iotaInDim S100000 32 0)

/-- The edges' target nodes followed by every node. -/
def cols (x1 : (⟨S2x3200000, .i32⟩ : BufTy).Contents (Elt Ideal)) : (⟨S3300000, .i32⟩ : BufTy).Contents (Elt Ideal) :=
  cat2 (F := Ideal) (shapeCast _ (extractStridedSlice S1x3200000 ![1, 0] x1 slices_S2x3200000_S1x3200000_1_0) shapeCasts_S1x3200000_S3200000) (iotaInDim S100000 32 0)

/-- A node index with a negative value counted from the end. -/
def wrap (v : (⟨S3300000, .i32⟩ : BufTy).Contents (Elt Ideal)) : (⟨S3300000, .i32⟩ : BufTy).Contents (Elt Ideal) :=
  select (cmpi .slt v (broadcastInDim S3300000 ![] bcast_S_S3300000 (constantI S_ 32 0#32))) (addi v (broadcastInDim S3300000 ![] bcast_S_S3300000 (constantI S_ 32 100000#32))) v

/-- A list of positions viewed as a column. -/
def col1 {α : Type} (v : S3300000.Idx → α) : S3300000x1.Idx → α :=
  broadcastInDim S3300000x1 ![0] bcast_S3300000_S3300000x1_0 v

/-- Per node, zero plus one for every position whose target is that node. -/
def deg (x1 : (⟨S2x3200000, .i32⟩ : BufTy).Contents (Elt Ideal)) : FVec Ideal S100000 .f32 :=
  Host.scatterAdd scatter_S100000_S3300000x1_S3300000_n_0_0_1 (broadcastInDim S100000 ![] bcast_S_S100000 (constant S_ .f32 0x00000000#32)) (col1 (cols x1)) (broadcastInDim S3300000 ![] bcast_S_S3300000 (constant S_ .f32 0x3F800000#32))

/-- deg^(-1/2) where deg is positive, zero elsewhere. -/
def dinv (x1 : (⟨S2x3200000, .i32⟩ : BufTy).Contents (Elt Ideal)) : FVec Ideal S100000 .f32 :=
  select (cmpf .ogt (deg x1) (broadcastInDim S100000 ![] bcast_S_S100000 (constant S_ .f32 0x00000000#32))) (Host.rsqrt (deg x1)) (broadcastInDim S100000 ![] bcast_S_S100000 (id (constant S_ .f32 0x00000000#32)))

/-- The feature matrix times the weight row. -/
def proj (x0 : (⟨S100000x512, .f32⟩ : BufTy).Contents (Elt Ideal)) (x2 : (⟨S1x512, .f32⟩ : BufTy).Contents (Elt Ideal)) : FVec Ideal S100000x1 .f32 :=
  Host.dotGeneral (φ₁ := .f32) (φ₂ := .f32) dot_S100000x512_S512x1_S100000x1_1_0_0_1_n_n none x0 (transpose S512x1 [1, 0] x2 transposes_S1x512_S512x1_1_0)

/-- Per position, dinv at the source times dinv at the target. -/
def norm (x1 : (⟨S2x3200000, .i32⟩ : BufTy).Contents (Elt Ideal)) : FVec Ideal S3300000 .f32 :=
  mulf (Host.gather gather_S100000_S3300000x1_S3300000_n_0_n_n_0_1_1 (dinv x1) (col1 (wrap (rows x1)))) (Host.gather gather_S100000_S3300000x1_S3300000_n_0_n_n_0_1_1 (dinv x1) (col1 (wrap (cols x1))))

/-- Per position, proj at the source times norm. -/
def msg (x0 : (⟨S100000x512, .f32⟩ : BufTy).Contents (Elt Ideal)) (x1 : (⟨S2x3200000, .i32⟩ : BufTy).Contents (Elt Ideal)) (x2 : (⟨S1x512, .f32⟩ : BufTy).Contents (Elt Ideal)) : FVec Ideal S3300000x1 .f32 :=
  mulf (Host.gather gather_S100000x1_S3300000x1_S3300000x1_1_0_n_n_0_1_11 (proj x0 x2) (col1 (wrap (rows x1)))) (col1 (norm x1))

/-- Per node, zero plus the sum of msg over the positions whose target is that node. -/
def agg (x0 : (⟨S100000x512, .f32⟩ : BufTy).Contents (Elt Ideal)) (x1 : (⟨S2x3200000, .i32⟩ : BufTy).Contents (Elt Ideal)) (x2 : (⟨S1x512, .f32⟩ : BufTy).Contents (Elt Ideal)) : FVec Ideal S100000x1 .f32 :=
  Host.scatterAdd scatter_S100000x1_S3300000x1_S3300000x1_1_0_0_1 (broadcastInDim S100000x1 ![] bcast_S_S100000x1 (constant S_ .f32 0x00000000#32)) (col1 (cols x1)) (msg x0 x1 x2)

/-- The bias, one number, spread down the column. -/
def biasCol (x3 : (⟨S1, .f32⟩ : BufTy).Contents (Elt Ideal)) : FVec Ideal S100000x1 .f32 :=
  broadcastInDim S100000x1 ![0, 1] bcast_S1x1_S100000x1_0_1 (broadcastInDim S1x1 ![1] bcast_S1_S1x1_1 x3)

/-- The logistic function, entry by entry. -/
def sigm (z : FVec Ideal S100000x1 .f32) : FVec Ideal S100000x1 .f32 :=
  Host.divf (broadcastInDim S100000x1 ![] bcast_S_S100000x1 (constant S_ .f32 0x3F800000#32)) (addf (broadcastInDim S100000x1 ![] bcast_S_S100000x1 (constant S_ .f32 0x3F800000#32)) (Host.exp (Host.negf z)))

/-- The reference's result as a function of its argument arrays. -/
def result (x0 : (⟨S100000x512, .f32⟩ : BufTy).Contents (Elt Ideal)) (x1 : (⟨S2x3200000, .i32⟩ : BufTy).Contents (Elt Ideal)) (x2 : (⟨S1x512, .f32⟩ : BufTy).Contents (Elt Ideal)) (x3 : (⟨S1, .f32⟩ : BufTy).Contents (Elt Ideal)) : FVec Ideal S100000x1 .f32 :=
  sigm (addf (agg x0 x1 x2) (biasCol x3))

set_option maxRecDepth 65536 in
set_option maxHeartbeats 27200000 in
/-- On every device, from any memory with zero counters: every weakly fair execution of the reference terminates with
    its result at 'result' of the argument arrays as launched, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v52) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v52).trans (by
        after_results_simp
        unfold result sigm biasCol agg msg norm proj dinv deg col1 wrap rows cols
        rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RefValue

end
-- ==== Proof.RefRead.lean ====
/-
  THE REFERENCE'S RESULT AT ONE NODE, in the shared scalar vocabulary.

  Reading 'RefValue.result' at (n, 0) stage by stage: the position lists 'rows' and 'cols' are the edge words followed
  by the node numbers; a gather reads its operand at 'nodeOf' of the index word; a scatter-add at a node is zero plus
  the sum of the updates at the positions whose target word is that node. The outcome is
  logistic (outR … n) of 'Cert.Gcn': the arrangement with self-loops appended.
-/
import proofs.«161635_j58248346468474_2_alg».proof.Proof.RefRun
import proofs.«161635_j58248346468474_2_alg».proof.Proof.GcnShared
import proofs.«161635_j58248346468474_2_alg».proof.Proof.LibGraphHost
import Idealize.ShloMosaic.Lib.Pipeline.Value
import Idealize.ShloMosaic.Lib.ValueIdx
import Idealize.ShloMosaic.Lib.IdealHost

set_option maxRecDepth 16384

noncomputable section

open Idealize.ShloMosaic Idealize.ShloMosaic.TcCoe Idealize.ShloMosaic.ValueIdx

namespace Cert.ReferenceIdeal.RefRead

open Cert.ReferenceIdeal Cert.ReferenceIdeal.Gen Cert.ReferenceIdeal.RefValue Cert.Gcn

variable (x0 : (⟨S100000x512, .f32⟩ : BufTy).Contents (Elt Ideal)) (x1 : (⟨S2x3200000, .i32⟩ : BufTy).Contents (Elt Ideal))
  (x2 : (⟨S1x512, .f32⟩ : BufTy).Contents (Elt Ideal)) (x3 : (⟨S1, .f32⟩ : BufTy).Contents (Elt Ideal))

/-! ## The position lists -/

/-- Row r of the edge array, flattened, at edge e. -/
theorem edgeRow_apply (r : Fin 2) (off : Fin 2 → ℕ) (hoff : off = ![r.val, 0]) (hs : S2x3200000.Slices off S1x3200000)
    (e : Fin 3200000) :
    shapeCast S3200000 (extractStridedSlice S1x3200000 off x1 hs) shapeCasts_S1x3200000_S3200000 (ix1 e)
      = x1 (ix2 r e) := by
  subst hoff
  refine (shapeCast_apply _ shapeCasts_S1x3200000_S3200000 (ix1 e) (ix2 (0 : Fin 1) e)
    (by rewrite [Shape.rowMajor_val_two, Shape.rowMajor_val_one]; show 0 * 3200000 + e.val = e.val; omega)).trans ?_
  exact extractStridedSlice_apply _ x1 hs (ix2 (0 : Fin 1) e) (ix2 r e) (fun a => match a with
    | ⟨0, _⟩ => by show r.val = r.val + 0; omega
    | ⟨1, _⟩ => by show e.val = 0 + e.val; omega)

/-- The first 3200000 positions' source words are the edges' sources. -/
theorem rows_left (e : Fin 3200000) : rows x1 (ix1 (⟨e.val, by omega⟩ : Fin 3300000)) = x1 (ix2 (0 : Fin 2) e) := by
  unfold rows cat2
  refine (concatenate_pair_apply_left (t := S3300000) (s₁ := S3200000) (s₂ := S100000) (0 : Fin 1) _ _
    concatenates_S3200000_S100000_S3300000_d0 (ix1 (⟨e.val, by omega⟩ : Fin 3300000)) rfl (ix1 e)
    (fun b => match b with | ⟨0, _⟩ => rfl)).trans ?_
  exact edgeRow_apply x1 0 _ rfl _ e

/-- The first 3200000 positions' target words are the edges' targets. -/
theorem cols_left (e : Fin 3200000) : cols x1 (ix1 (⟨e.val, by omega⟩ : Fin 3300000)) = x1 (ix2 (1 : Fin 2) e) := by
  unfold cols cat2
  refine (concatenate_pair_apply_left (t := S3300000) (s₁ := S3200000) (s₂ := S100000) (0 : Fin 1) _ _
    concatenates_S3200000_S100000_S3300000_d0 (ix1 (⟨e.val, by omega⟩ : Fin 3300000)) rfl (ix1 e)
    (fun b => match b with | ⟨0, _⟩ => rfl)).trans ?_
  exact edgeRow_apply x1 1 _ rfl _ e

/-- Position 3200000 + k has source word k. -/
theorem rows_right (k : Fin 100000) : rows x1 (ix1 (⟨3200000 + k.val, by omega⟩ : Fin 3300000)) = BitVec.ofNat 32 k.val := by
  unfold rows cat2
  refine (concatenate_pair_apply_right (t := S3300000) (s₁ := S3200000) (s₂ := S100000) (0 : Fin 1) _ _
    concatenates_S3200000_S100000_S3300000_d0 (ix1 (⟨3200000 + k.val, by omega⟩ : Fin 3300000)) rfl rfl (ix1 k)
    (fun b hb => absurd (Subsingleton.elim _ _) hb) (by show k.val + 3200000 = 3200000 + k.val; omega)).trans ?_
  rfl

/-- Position 3200000 + k has target word k. -/
theorem cols_right (k : Fin 100000) : cols x1 (ix1 (⟨3200000 + k.val, by omega⟩ : Fin 3300000)) = BitVec.ofNat 32 k.val := by
  unfold cols cat2
  refine (concatenate_pair_apply_right (t := S3300000) (s₁ := S3200000) (s₂ := S100000) (0 : Fin 1) _ _
    concatenates_S3200000_S100000_S3300000_d0 (ix1 (⟨3200000 + k.val, by omega⟩ : Fin 3300000)) rfl rfl (ix1 k)
    (fun b hb => absurd (Subsingleton.elim _ _) hb) (by show k.val + 3200000 = 3200000 + k.val; omega)).trans ?_
  rfl

/-- A list viewed as a column, read at (j, 0). -/
theorem col1_apply {α : Type} (v : S3300000.Idx → α) (j : Fin 3300000) : col1 v (ix2 j (0 : Fin 1)) = v (ix1 j) := by
  unfold col1
  exact broadcastInDim_apply _ bcast_S3300000_S3300000x1_0 v (ix2 j (0 : Fin 1)) (ix1 j) (fun a => match a with
    | ⟨0, _⟩ => by show j.val = if (3300000 : Nat) = 1 then 0 else j.val; rw [if_neg (by decide)])

/-- The source and target words by position. -/
def R' (j : Fin 3300000) : BitVec 32 := rows x1 (ix1 j)
def C' (j : Fin 3300000) : BitVec 32 := cols x1 (ix1 j)

theorem lhs0 (i : S100000x1.Idx) (q : dot_S100000x512_S512x1_S100000x1_1_0_0_1_n_n.contr.Idx) :
    (dot_S100000x512_S512x1_S100000x1_1_0_0_1_n_n.lhsIdx i q 0).val = (i 0).val := by
  unfold DotDims.lhsIdx
  rw [dif_neg (show ¬(0 : Fin S100000x512.rank) ∈ dot_S100000x512_S512x1_S100000x1_1_0_0_1_n_n.lhsBatch by decide), dif_pos (show (0 : Fin S100000x512.rank) ∈ dot_S100000x512_S512x1_S100000x1_1_0_0_1_n_n.lhsNonContracting by decide)]
  rfl
theorem lhs1 (i : S100000x1.Idx) (q : dot_S100000x512_S512x1_S100000x1_1_0_0_1_n_n.contr.Idx) :
    (dot_S100000x512_S512x1_S100000x1_1_0_0_1_n_n.lhsIdx i q 1).val = (q ⟨0, by decide⟩).val := by
  unfold DotDims.lhsIdx
  rw [dif_neg (show ¬(1 : Fin S100000x512.rank) ∈ dot_S100000x512_S512x1_S100000x1_1_0_0_1_n_n.lhsBatch by decide), dif_neg (show ¬(1 : Fin S100000x512.rank) ∈ dot_S100000x512_S512x1_S100000x1_1_0_0_1_n_n.lhsNonContracting by decide)]
  rfl
theorem rhs0 (i : S100000x1.Idx) (q : dot_S100000x512_S512x1_S100000x1_1_0_0_1_n_n.contr.Idx) :
    (dot_S100000x512_S512x1_S100000x1_1_0_0_1_n_n.rhsIdx i q 0).val = (q ⟨0, by decide⟩).val := by
  unfold DotDims.rhsIdx
  rw [dif_neg (show ¬(0 : Fin S512x1.rank) ∈ dot_S100000x512_S512x1_S100000x1_1_0_0_1_n_n.rhsBatch by decide), dif_neg (show ¬(0 : Fin S512x1.rank) ∈ dot_S100000x512_S512x1_S100000x1_1_0_0_1_n_n.rhsNonContracting by decide)]
  rfl
theorem rhs1 (i : S100000x1.Idx) (q : dot_S100000x512_S512x1_S100000x1_1_0_0_1_n_n.contr.Idx) :
    (dot_S100000x512_S512x1_S100000x1_1_0_0_1_n_n.rhsIdx i q 1).val = (i 1).val := by
  unfold DotDims.rhsIdx
  rw [dif_neg (show ¬(1 : Fin S512x1.rank) ∈ dot_S100000x512_S512x1_S100000x1_1_0_0_1_n_n.rhsBatch by decide), dif_pos (show (1 : Fin S512x1.rank) ∈ dot_S100000x512_S512x1_S100000x1_1_0_0_1_n_n.rhsNonContracting by decide)]
  rfl

/-- The weight row applied to node n's features. -/
theorem proj_apply (n : Fin 100000) : proj x0 x2 (ix2 n (0 : Fin 1)) = projAt x0 x2 n := by
  unfold proj projAt
  simp only [Host.dotGeneral]
  rw [Ideal.dotGeneral_apply, ← Equiv.sum_comp (contrEquiv1 dot_S100000x512_S512x1_S100000x1_1_0_0_1_n_n 512 rfl rfl).symm]
  refine Finset.sum_congr rfl fun k _ => ?_
  have hk := contrEquiv1_symm_val dot_S100000x512_S512x1_S100000x1_1_0_0_1_n_n 512 rfl rfl k
  have el : dot_S100000x512_S512x1_S100000x1_1_0_0_1_n_n.lhsIdx (ix2 n (0 : Fin 1)) ((contrEquiv1 dot_S100000x512_S512x1_S100000x1_1_0_0_1_n_n 512 rfl rfl).symm k) = ix2 n k := funext fun a => Fin.ext (by
    match a with
    | ⟨0, _⟩ => exact lhs0 _ _
    | ⟨1, _⟩ => exact (lhs1 _ _).trans hk)
  have er : dot_S100000x512_S512x1_S100000x1_1_0_0_1_n_n.rhsIdx (ix2 n (0 : Fin 1)) ((contrEquiv1 dot_S100000x512_S512x1_S100000x1_1_0_0_1_n_n 512 rfl rfl).symm k) = ix2 k (0 : Fin 1) := funext fun a => Fin.ext (by
    match a with
    | ⟨0, _⟩ => exact (rhs0 _ _).trans hk
    | ⟨1, _⟩ => exact rhs1 _ _)
  rw [el, er]
  congr 1
  exact transpose_apply [1, 0] x2 transposes_S1x512_S512x1_1_0 (ix2 k (0 : Fin 1)) (ix2 (0 : Fin 1) k) (fun b => match b with
    | ⟨0, _⟩ => rfl
    | ⟨1, _⟩ => rfl)

/-! ### Pointwise operations at one index, over any operand -/

theorem wrap_apply (v : (⟨S3300000, .i32⟩ : BufTy).Contents (Elt Ideal)) (j : Fin 3300000) :
    wrap v (ix1 j) = wrapW (v (ix1 j)) := rfl

theorem guarded_apply (d : FVec Ideal S100000 .f32) (k : Fin 100000) :
    (select (cmpf .ogt d (broadcastInDim S100000 ![] bcast_S_S100000 (constant S_ .f32 0x00000000#32))) (Host.rsqrt d)
      (broadcastInDim S100000 ![] bcast_S_S100000 (id (constant S_ .f32 0x00000000#32))) : FVec Ideal S100000 .f32) (ix1 k)
      = Scalar.select (Ideal.cmp .ogt (d (ix1 k)) zeroE) (rsE (d (ix1 k))) zeroE := rfl

theorem sigm_apply (z : FVec Ideal S100000x1 .f32) (n : Fin 100000) :
    sigm z (ix2 n (0 : Fin 1)) = logistic (z (ix2 n (0 : Fin 1))) := rfl

theorem zeroVec_apply (k : Fin 100000) :
    (broadcastInDim S100000 ![] bcast_S_S100000 (constant (F := Ideal) S_ .f32 0x00000000#32) : FVec Ideal S100000 .f32) (ix1 k) = zeroE := rfl

theorem onePos_apply (j : Fin 3300000) :
    (broadcastInDim S3300000 ![] bcast_S_S3300000 (constant (F := Ideal) S_ .f32 0x3F800000#32) : FVec Ideal S3300000 .f32) (ix1 j) = oneE := rfl

theorem zeroCol_apply (n : Fin 100000) :
    (broadcastInDim S100000x1 ![] bcast_S_S100000x1 (constant (F := Ideal) S_ .f32 0x00000000#32) : FVec Ideal S100000x1 .f32) (ix2 n (0 : Fin 1)) = zeroE := rfl

/-- A gather of a vector at wrapped index words, read at position j. -/
theorem gatherV_apply (x : FVec Ideal S100000 .f32) (v : (⟨S3300000, .i32⟩ : BufTy).Contents (Elt Ideal)) (j : Fin 3300000) :
    Host.gather gather_S100000_S3300000x1_S3300000_n_0_n_n_0_1_1 x (col1 (wrap v)) (ix1 j) = x (ix1 (nodeOf (v (ix1 j)))) := by
  refine (Graph.vecGather_apply (by decide) gather_S100000_S3300000x1_S3300000_n_0_n_n_0_1_1_wf x _ j).trans ?_
  rw [col1_apply, wrap_apply]
  rfl

/-- A gather of a column at wrapped index words, read at (j, 0). -/
theorem gatherC_apply (x : FVec Ideal S100000x1 .f32) (v : (⟨S3300000, .i32⟩ : BufTy).Contents (Elt Ideal)) (j : Fin 3300000) :
    Host.gather gather_S100000x1_S3300000x1_S3300000x1_1_0_n_n_0_1_11 x (col1 (wrap v)) (ix2 j (0 : Fin 1))
      = x (ix2 (nodeOf (v (ix1 j))) (0 : Fin 1)) := by
  refine (Graph.colGather_apply (by decide) gather_S100000x1_S3300000x1_S3300000x1_1_0_n_n_0_1_11_wf x _ j).trans ?_
  rw [col1_apply, wrap_apply]
  rfl

/-! ### The stages at one index -/

theorem deg_apply (k : Fin 100000) : deg x1 (ix1 k) = degR zeroE oneE (C' x1) k := by
  unfold deg degR
  exact Graph.host_vecScatterAdd_apply _ scatter_S100000_S3300000x1_S3300000_n_0_0_1_wf rfl _ _ _ k (C' x1)
    (fun j => by rw [col1_apply]; rfl) zeroE (zeroVec_apply k) (fun _ => oneE) (fun j => onePos_apply j)

theorem dinv_apply (k : Fin 100000) : dinv x1 (ix1 k) = dinvR zeroE oneE rsE (C' x1) k := by
  unfold dinv dinvR
  rw [guarded_apply, deg_apply]

theorem norm_apply (j : Fin 3300000) :
    RefValue.norm x1 (ix1 j) = dinvR zeroE oneE rsE (C' x1) (nodeOf (R' x1 j)) * dinvR zeroE oneE rsE (C' x1) (nodeOf (C' x1 j)) := by
  unfold RefValue.norm
  rw [mulf_apply, gatherV_apply, gatherV_apply, dinv_apply, dinv_apply]
  rfl

theorem msg_apply (j : Fin 3300000) :
    msg x0 x1 x2 (ix2 j (0 : Fin 1))
      = projAt x0 x2 (nodeOf (R' x1 j))
        * (dinvR zeroE oneE rsE (C' x1) (nodeOf (R' x1 j)) * dinvR zeroE oneE rsE (C' x1) (nodeOf (C' x1 j))) := by
  unfold msg
  rw [mulf_apply, gatherC_apply, col1_apply, norm_apply, proj_apply]
  rfl

theorem agg_apply (n : Fin 100000) :
    agg x0 x1 x2 (ix2 n (0 : Fin 1))
      = zeroE + ∑ j ∈ (Finset.univ : Finset (Fin 3300000)).filter (fun j => (C' x1 j).toInt = (n.val : ℤ)),
          projAt x0 x2 (nodeOf (R' x1 j))
            * (dinvR zeroE oneE rsE (C' x1) (nodeOf (R' x1 j)) * dinvR zeroE oneE rsE (C' x1) (nodeOf (C' x1 j))) := by
  unfold agg
  exact Graph.host_colScatterAdd_apply _ scatter_S100000x1_S3300000x1_S3300000x1_1_0_0_1_wf rfl _ _ _ n (C' x1)
    (fun j => by rw [col1_apply]; rfl) zeroE (zeroCol_apply n) _ (fun j => msg_apply x0 x1 x2 j)

/-- The bias column holds the bias's one entry. -/
theorem biasCol_apply (n : Fin 100000) : biasCol x3 (ix2 n (0 : Fin 1)) = x3 (ix1 (0 : Fin 1)) := by
  unfold biasCol
  refine (broadcastInDim_apply _ bcast_S1x1_S100000x1_0_1 _ (ix2 n (0 : Fin 1)) (ix2 (0 : Fin 1) (0 : Fin 1)) (fun a => match a with
    | ⟨0, _⟩ => by show 0 = if (1 : Nat) = 1 then 0 else n.val; rw [if_pos rfl]
    | ⟨1, _⟩ => by show 0 = if (1 : Nat) = 1 then 0 else 0; rw [if_pos rfl])).trans ?_
  exact broadcastInDim_apply _ bcast_S1_S1x1_1 x3 (ix2 (0 : Fin 1) (0 : Fin 1)) (ix1 (0 : Fin 1)) (fun a => match a with
    | ⟨0, _⟩ => by show 0 = if (1 : Nat) = 1 then 0 else 0; rw [if_pos rfl])

/-- THE REFERENCE'S RESULT AT NODE n. -/
theorem result_apply (n : Fin 100000) :
    result x0 x1 x2 x3 (ix2 n (0 : Fin 1))
      = logistic (outR zeroE oneE (x3 (ix1 (0 : Fin 1))) rsE (projAt x0 x2) nodeOf (R' x1) (C' x1) n) := by
  unfold result outR
  rw [sigm_apply, addf_apply, agg_apply, biasCol_apply]

end Cert.ReferenceIdeal.RefRead

end
-- ==== Proof.lean ====
/-
  A one-channel graph convolution with symmetric normalization, followed by the logistic function: the kernel program
  against the jnp reference, at the extended reals.

  Both programs compute, for the [100000, 512] features x, the [1, 512] weight row W, the bias b and 3200000 edges
  (source word R e, target word C e): h n = the sum over k of x[n, k] · W[0, k]; deg n = the number of edges into n,
  plus one; dinv = deg^(-1/2); out n = the sum over the edges e into n of h(source e) · dinv(source e) · dinv(target e),
  plus h n · dinv n · dinv n, plus b; and the result 1 / (1 + exp (−out n)).

  The kernel program computes h in a launched region, block of 4000 rows by block, against a weight matrix padded with
  zero columns of which only column 0 is stored ('KValue'), and adds the self-loop's term densely ('KTail'). The
  reference appends one self-loop per node to the edge list, so that its scatter-adds run over 3300000 positions, and
  guards the inverse root by deg > 0 ('RefValue', 'RefRead'). Read at a node both are the logistic function of one of
  the two arrangements of 'Cert.Gcn', which agree ('Cert.Gcn.outR_eq_outK'): the positions into n are the edges into n
  and position 3200000 + n, and every degree is positive. An index word out of range is read the same way by both
  programs (wrapped and clamped by a gather, dropped by a scatter-add), so no condition on the edge array is needed;
  only commutative-monoid laws of addition on the extended reals are used, so none on the floats either.

  The three frames: the kernel's two are the generated ones; the reference's is its run with the result dropped. The
  ideal pass rewrote nothing, so 'preserves' is trivial.
-/
import proofs.«161635_j58248346468474_2_alg».proof.Defs
import proofs.«161635_j58248346468474_2_alg».proof.Proof.Gen.Kernel
import proofs.«161635_j58248346468474_2_alg».proof.Proof.Gen.Kernel.Skeleton
import proofs.«161635_j58248346468474_2_alg».proof.Proof.Gen.Kernel.Launch
import proofs.«161635_j58248346468474_2_alg».proof.Proof.Gen.Kernel.Points
import proofs.«161635_j58248346468474_2_alg».proof.Proof.Gen.Kernel.Frame
import proofs.«161635_j58248346468474_2_alg».proof.Proof.Gen.KernelIdeal
import proofs.«161635_j58248346468474_2_alg».proof.Proof.Gen.KernelIdeal.Skeleton
import proofs.«161635_j58248346468474_2_alg».proof.Proof.Gen.KernelIdeal.Launch
import proofs.«161635_j58248346468474_2_alg».proof.Proof.Gen.KernelIdeal.Points
import proofs.«161635_j58248346468474_2_alg».proof.Proof.Gen.KernelIdeal.Frame
import proofs.«161635_j58248346468474_2_alg».proof.Proof.Gen.ReferenceIdeal
import proofs.«161635_j58248346468474_2_alg».proof.Proof.Gen.Pre_finite_inputs
import proofs.«161635_j58248346468474_2_alg».proof.Proof.KernelRun
import proofs.«161635_j58248346468474_2_alg».proof.Proof.RefRead
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx Cert.Gcn

/-- The two programs' results are one function of the argument arrays, given that the kernel's projection column is
    the weight row applied to each node's features. -/
theorem results_eq (x0 : FVec Ideal Cert.ReferenceIdeal.S100000x512 .f32) (x1 : IVec Cert.ReferenceIdeal.S2x3200000 32)
    (x2 : FVec Ideal Cert.ReferenceIdeal.S1x512 .f32) (x3 : FVec Ideal Cert.ReferenceIdeal.S1 .f32)
    (hK : FVec Ideal Cert.KernelIdeal.S100000x1 .f32)
    (hh : ∀ n : Fin 100000, hK (ix2 n (0 : Fin 1)) = projAt x0 x2 n) :
    Cert.KernelIdeal.KTail.result hK x1 x3 = Cert.ReferenceIdeal.RefValue.result x0 x1 x2 x3 := by
  funext i
  obtain ⟨n, q, rfl⟩ : ∃ (n : Fin 100000) (q : Fin 1), i = ix2 n q := ⟨i 0, i 1, eq_ix2 i⟩
  obtain rfl : q = 0 := Subsingleton.elim _ _
  refine (Cert.KernelIdeal.KTail.result_apply hK x1 x3 n).trans ?_
  refine Eq.trans ?_ (Cert.ReferenceIdeal.RefRead.result_apply x0 x1 x2 x3 n).symm
  refine congrArg logistic ?_
  rw [zeroE_eq, oneE_eq, show (fun k => hK (ix2 k (0 : Fin 1))) = projAt x0 x2 from funext hh]
  exact (outR_eq_outK (N := 100000) (E := 3200000) _ rsE (projAt x0 x2) nodeOf
    (Cert.KernelIdeal.KTail.R x1) (Cert.KernelIdeal.KTail.C x1)
    (Cert.ReferenceIdeal.RefRead.R' x1) (Cert.ReferenceIdeal.RefRead.C' x1)
    (fun e => Cert.ReferenceIdeal.RefRead.rows_left x1 e) (fun e => Cert.ReferenceIdeal.RefRead.cols_left x1 e)
    (fun k => Cert.ReferenceIdeal.RefRead.rows_right x1 k) (fun k => Cert.ReferenceIdeal.RefRead.cols_right x1 k)
    (by norm_num) nodeOf_ofNat n).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

/-- The ideal pass rewrote no operation. -/
theorem preserves : Cert.preserves_Kernel_KernelIdeal := trivial

/-- From memories agreeing on the arguments the two idealized programs end with equal results. -/
theorem algebraic : Cert.algebraic_KernelIdeal_ReferenceIdeal := by
  intro m ρ m' ρ' _ hagree
  refine ⟨fun c => Cert.KernelIdeal.KTail.result
      (Cert.KernelIdeal.KValue.proj (Cert.KernelIdeal.Gen.V m c Cert.KernelIdeal.main_arg0) (Cert.KernelIdeal.Gen.V m c Cert.KernelIdeal.main_v3))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    Cert.KernelIdeal.KRun.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]
  exact (results_eq _ _ _ _ _ (fun n => Cert.KernelIdeal.KValue.proj_apply m c n)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
